-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x512 .f32) (main_arg1 : FVec F S8192x512 .f32) (main_arg2 : FVec F S8192x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x512 : Shape := ⟨2, ![8192, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1x2048 : Shape := ⟨2, ![1, 2048]⟩
abbrev S1024x512 : Shape := ⟨2, ![1024, 512]⟩

abbrev nBuf : Space → Nat
  | .hbm => 39
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x2048, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x2048, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S2048, .f32⟩
  | .hbm, ⟨34, _⟩ => ⟨S1x2048, .f32⟩
  | .hbm, ⟨35, _⟩ => ⟨S512x2048, .bf16⟩
  | .hbm, ⟨36, _⟩ => ⟨S512x2048, .bf16⟩
  | .hbm, ⟨37, _⟩ => ⟨S8192x512, .f32⟩
  | .hbm, ⟨38, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x512_S512x512_1_0 : S512x512.Transposes [1, 0] S512x512
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  shapeCasts_S2048_S1x2048 : S2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x512_S512x512_0_0 : ∀ a, (![0, 0] : Fin 2 → Nat) a + S512x512.size a ≤ S1024x512.size a
  h_S512x512 : 0 < S512x512.numel
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  inb_S1024x512_S512x512_512_0 : ∀ a, (![512, 0] : Fin 2 → Nat) a + S512x512.size a ≤ S1024x512.size a
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .f32 = 32 ∨ (Rect.block (s := S8192x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x512.size a
  hwx0_7 : ∀ i : grid0.Coords, EltTy.bits .f32 = 32 ∨ (Rect.block (s := S8192x512) S1024x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S1x512x512 : Shape := ⟨3, ![1, 512, 512]⟩
abbrev S4x512x512 : Shape := ⟨3, ![4, 512, 512]⟩
abbrev S1x512 : Shape := ⟨2, ![1, 512]⟩
abbrev S4x512 : Shape := ⟨2, ![4, 512]⟩
abbrev S8192x4x512 : Shape := ⟨3, ![8192, 4, 512]⟩
abbrev S1x4x512 : Shape := ⟨3, ![1, 4, 512]⟩
abbrev S8192x1x512 : Shape := ⟨3, ![8192, 1, 512]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S1x512x512, .f32⟩
  | .hbm, ⟨20, _⟩ => ⟨S1x512x512, .f32⟩
  | .hbm, ⟨21, _⟩ => ⟨S1x512x512, .f32⟩
  | .hbm, ⟨22, _⟩ => ⟨S1x512x512, .f32⟩
  | .hbm, ⟨23, _⟩ => ⟨S4x512x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S4x512, .f32⟩
  | .hbm, ⟨29, _⟩ => ⟨S1x512x512, .f32⟩
  | .hbm, ⟨30, _⟩ => ⟨S1x512x512, .f32⟩
  | .hbm, ⟨31, _⟩ => ⟨S1x512x512, .f32⟩
  | .hbm, ⟨32, _⟩ => ⟨S1x512x512, .f32⟩
  | .hbm, ⟨33, _⟩ => ⟨S4x512x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S4x512, .f32⟩
  | .hbm, ⟨39, _⟩ => ⟨S8192x4x512, .f32⟩
  | .hbm, ⟨40, _⟩ => ⟨S1x4x512, .f32⟩
  | .hbm, ⟨41, _⟩ => ⟨S8192x4x512, .f32⟩
  | .hbm, ⟨42, _⟩ => ⟨S8192x4x512, .f32⟩
  | .hbm, ⟨43, _⟩ => ⟨S8192x4x512, .f32⟩
  | .hbm, ⟨44, _⟩ => ⟨S8192x4x512, .f32⟩
  | .hbm, ⟨45, _⟩ => ⟨S1x4x512, .f32⟩
  | .hbm, ⟨46, _⟩ => ⟨S8192x4x512, .f32⟩
  | .hbm, ⟨47, _⟩ => ⟨S8192x4x512, .f32⟩
  | .hbm, ⟨48, _⟩ => ⟨S8192x1x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x1x512, .f32⟩
  | .hbm, ⟨59, _⟩ => ⟨S8192x512, .f32⟩
  | .hbm, ⟨60, _⟩ => ⟨S8192x512, .f32⟩
  | .hbm, ⟨61, _⟩ => ⟨S8192x1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S8192x1x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_1 : Ref sig .tc := ⟨.hbm, 65, rfl⟩
abbrev main_v44 : Ref sig .tc := ⟨.hbm, 66, rfl⟩
abbrev main_v45 : Ref sig .tc := ⟨.hbm, 67, rfl⟩
abbrev main_cst_2 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_3 : Ref sig .tc := ⟨.hbm, 75, rfl⟩
abbrev main_v52 : Ref sig .tc := ⟨.hbm, 76, rfl⟩
abbrev main_v53 : Ref sig .tc := ⟨.hbm, 77, rfl⟩
abbrev main_cst_4 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  concatenates_S1x512x512_S1x512x512_S1x512x512_S1x512x512_S4x512x512_d0 : Shape.Concatenates [S1x512x512, S1x512x512, S1x512x512, S1x512x512] S4x512x512 0
  bcast_S512_S1x512_1 : S512.BroadcastsInDim S1x512 (![1] : Fin 1 → Fin S1x512.rank)
  concatenates_S1x512_S1x512_S1x512_S1x512_S4x512_d0 : Shape.Concatenates [S1x512, S1x512, S1x512, S1x512] S4x512 0
  bcast_S4x512_S1x4x512_1_2 : S4x512.BroadcastsInDim S1x4x512 (![1, 2] : Fin 2 → Fin S1x4x512.rank)
  bcast_S1x4x512_S8192x4x512_0_1_2 : S1x4x512.BroadcastsInDim S8192x4x512 (![0, 1, 2] : Fin 3 → Fin S8192x4x512.rank)
  slices_S8192x4x512_S8192x1x512_0_0_0 : S8192x4x512.Slices ![0, 0, 0] S8192x1x512
  shapeCasts_S8192x1x512_S8192x512 : S8192x1x512.ShapeCasts S8192x512
  bcast_S_S8192x512 : S_.BroadcastsInDim S8192x512 (![] : Fin 0 → Fin S8192x512.rank)
  slices_S8192x4x512_S8192x1x512_0_1_0 : S8192x4x512.Slices ![0, 1, 0] S8192x1x512
  slices_S8192x4x512_S8192x1x512_0_2_0 : S8192x4x512.Slices ![0, 2, 0] S8192x1x512
  slices_S8192x4x512_S8192x1x512_0_3_0 : S8192x4x512.Slices ![0, 3, 0] S8192x1x512
  dot_S8192x512_S4x512x512_S8192x4x512_1_2_0_01_n_n_wf : DotDims.WF S8192x512 S4x512x512 S8192x4x512 [1] [2] [0] [0, 1] [] []

variable [Facts₀]

def dot_S8192x512_S4x512x512_S8192x4x512_1_2_0_01_n_n : DotDims S8192x512 S4x512x512 S8192x4x512 where
  lhsContracting := [1]
  rhsContracting := [2]
  lhsNonContracting := [0]
  rhsNonContracting := [0, 1]
  lhsBatch := []
  rhsBatch := []
  wf := dot_S8192x512_S4x512x512_S8192x4x512_1_2_0_01_n_n_wf

class Facts : Prop extends Facts₀ where

variable [Facts]
-- ==== Proof.FrameK.lean ====
/-
  The frame of the LSTM-cell program: it runs to the end, nothing faults, and its nineteen argument arrays end as
  they began; and what its two result arrays hold at the end, in terms of what each grid point writes back.

  The program first prepares three arrays on the host — the four input-side weight matrices transposed and joined
  along the columns into one [512, 2048] matrix, the four recurrent-side ones likewise, and the four summed bias
  vectors joined into one [1, 2048] row — and then launches one kernel on a grid of eight points. Point `t` is
  handed rows 1024·t … 1024·t + 1023 of x, h and c (windows 0, 1, 2), the whole of the three prepared arrays
  (windows 3, 4, 5, fetched once), and writes back rows 1024·t … of the new hidden state (window 6) and of the new
  cell state (window 7). Its body treats the 1024 rows as two halves of 512: each half is one pure expression
  (the skeleton's payloads) of the loaded blocks, stored into its half of the two output buffers; the two stores
  into each buffer tile it.

  Stated for every float instance `F`, so that the same text serves the program read word by word and read over
  the extended reals.
-/
import proofs.«138366_j52338471469772_2_alg».proof.Proof.Gen.Kernel.Launch
import proofs.«138366_j52338471469772_2_alg».proof.Proof.Gen.Kernel.Skeleton
import proofs.«138366_j52338471469772_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel's launch -/

/-- Core `c`'s buffers when the kernel is launched: the given memory after the eighteen host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the kernel writes argument 0: the kernel's launch finds it as the program was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 1: the kernel's launch finds it as the program was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 2: the kernel's launch finds it as the program was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 3: the kernel's launch finds it as the program was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 4: the kernel's launch finds it as the program was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 5: the kernel's launch finds it as the program was given it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 6: the kernel's launch finds it as the program was given it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 7: the kernel's launch finds it as the program was given it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 8: the kernel's launch finds it as the program was given it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 9: the kernel's launch finds it as the program was given it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 10: the kernel's launch finds it as the program was given it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 11: the kernel's launch finds it as the program was given it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 12: the kernel's launch finds it as the program was given it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 13: the kernel's launch finds it as the program was given it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 14: the kernel's launch finds it as the program was given it. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 15: the kernel's launch finds it as the program was given it. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 16: the kernel's launch finds it as the program was given it. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 17: the kernel's launch finds it as the program was given it. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 18: the kernel's launch finds it as the program was given it. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether it was fetched there or not (an
    unfetched window's block index has not moved), for any proof data whose array is the launch's and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every window's array at what the proof data computes and every other buffer as the launch
    found it leaves the nineteen arguments as given: x, h and c are input windows' arrays, never written back; the
    sixteen parameter arrays are no window's array and no host operation's result. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

/-- The whole of a prepared weight matrix, the whole bias row, and the two halves of a 1024-row tile. -/
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0
abbrev rT : Rect S1024x512 := Rect.unit (s := S1024x512) ![0, 0] S512x512.size inb_S1024x512_S512x512_0_0
abbrev rU : Rect S1024x512 := Rect.unit (s := S1024x512) ![512, 0] S512x512.size inb_S1024x512_S512x512_512_0

/-! ## What the body leaves in each output buffer -/

/-- The new hidden state's buffer after the body: the lower half's store, then the upper half's (last first). -/
def out0_6 (x0 x1 x2 : Vec F S1024x512 .f32) (x3 x4 : Vec F S512x2048 .bf16) (x5 : Vec F S1x2048 .f32) : Vec F S1024x512 .f32 :=
  View.canon [⟨rU, k0_pay3 (k0_pay4 (View.ld x3 rW)) (k0_pay5 (View.ld x4 rW)) (k0_pay6 (View.ld x5 rB)) (k0_pay10 (View.ld x0 rU)) (k0_pay11 (View.ld x1 rU)) (View.ld x2 rU)⟩,
    ⟨rT, k0_pay9 (View.ld x3 rW) (View.ld x4 rW) (View.ld x5 rB) (View.ld x0 rT) (View.ld x1 rT) (View.ld x2 rT)⟩]

/-- The new cell state's buffer after the body. -/
def out0_7 (x0 x1 x2 : Vec F S1024x512 .f32) (x3 x4 : Vec F S512x2048 .bf16) (x5 : Vec F S1x2048 .f32) : Vec F S1024x512 .f32 :=
  View.canon [⟨rU, k0_pay2 (k0_pay4 (View.ld x3 rW)) (k0_pay5 (View.ld x4 rW)) (k0_pay6 (View.ld x5 rB)) (k0_pay10 (View.ld x0 rU)) (k0_pay11 (View.ld x1 rU)) (View.ld x2 rU)⟩,
    ⟨rT, k0_pay8 (View.ld x3 rW) (View.ld x4 rW) (View.ld x5 rB) (View.ld x0 rT) (View.ld x1 rT) (View.ld x2 rT)⟩]

/-- The two half-tile stores tile a 1024-row buffer, so they cover it. -/
theorem cover_halves (p0 : Vec F S512x512 .f32) (p1 : Vec F S512x512 .f32) (y : S1024x512.Idx) :
    ∃ pc ∈ ([⟨rU, p0⟩, ⟨rT, p1⟩] : List (View.Piece (Elt F) S1024x512 .f32)), y ∈ pc.1.set :=
  View.cover_of_tiled [⟨rU, p0⟩, ⟨rT, p1⟩] S512x512.size (by rfl) y

/-! ## The body's triple -/

set_option maxHeartbeats 4000000 in
/-- The kernel body on whole buffers — the six inputs' at contents `x0 … x5`, the two outputs' at anything — runs to
    its end with the inputs' as they were and each output's at the two half-tile expressions of the inputs'. -/
theorem sound_kernel (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_halves _ _)
  iexists _; isplitr
  swap; · iexact H7
  ipureintro
  try dsimp only
  exact View.read_writes_eq_canon _ _ _ (cover_halves _ _)

/-! ## The proof data -/

/-- After the body at point `t` each input's buffer holds its block and each output's the two half-tile
    expressions of the six input blocks; the arrays are the launch's; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, nothing faulting, with every window's array at what the
    proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and leaves its nineteen arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.FrameKI.lean ====
/-
  The frame of the LSTM-cell program: it runs to the end, nothing faults, and its nineteen argument arrays end as
  they began; and what its two result arrays hold at the end, in terms of what each grid point writes back.

  The program first prepares three arrays on the host — the four input-side weight matrices transposed and joined
  along the columns into one [512, 2048] matrix, the four recurrent-side ones likewise, and the four summed bias
  vectors joined into one [1, 2048] row — and then launches one kernel on a grid of eight points. Point `t` is
  handed rows 1024·t … 1024·t + 1023 of x, h and c (windows 0, 1, 2), the whole of the three prepared arrays
  (windows 3, 4, 5, fetched once), and writes back rows 1024·t … of the new hidden state (window 6) and of the new
  cell state (window 7). Its body treats the 1024 rows as two halves of 512: each half is one pure expression
  (the skeleton's payloads) of the loaded blocks, stored into its half of the two output buffers; the two stores
  into each buffer tile it.

  Stated for every float instance `F`, so that the same text serves the program read word by word and read over
  the extended reals.
-/
import proofs.«138366_j52338471469772_2_alg».proof.Proof.Gen.KernelIdeal.Launch
import proofs.«138366_j52338471469772_2_alg».proof.Proof.Gen.KernelIdeal.Skeleton
import proofs.«138366_j52338471469772_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel's launch -/

/-- Core `c`'s buffers when the kernel is launched: the given memory after the eighteen host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the kernel writes argument 0: the kernel's launch finds it as the program was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 1: the kernel's launch finds it as the program was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 2: the kernel's launch finds it as the program was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 3: the kernel's launch finds it as the program was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 4: the kernel's launch finds it as the program was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 5: the kernel's launch finds it as the program was given it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 6: the kernel's launch finds it as the program was given it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 7: the kernel's launch finds it as the program was given it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 8: the kernel's launch finds it as the program was given it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 9: the kernel's launch finds it as the program was given it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 10: the kernel's launch finds it as the program was given it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 11: the kernel's launch finds it as the program was given it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 12: the kernel's launch finds it as the program was given it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 13: the kernel's launch finds it as the program was given it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 14: the kernel's launch finds it as the program was given it. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 15: the kernel's launch finds it as the program was given it. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 16: the kernel's launch finds it as the program was given it. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 17: the kernel's launch finds it as the program was given it. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))
/-- No host operation before the kernel writes argument 18: the kernel's launch finds it as the program was given it. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether it was fetched there or not (an
    unfetched window's block index has not moved), for any proof data whose array is the launch's and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every window's array at what the proof data computes and every other buffer as the launch
    found it leaves the nineteen arguments as given: x, h and c are input windows' arrays, never written back; the
    sixteen parameter arrays are no window's array and no host operation's result. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

/-- The whole of a prepared weight matrix, the whole bias row, and the two halves of a 1024-row tile. -/
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0
abbrev rT : Rect S1024x512 := Rect.unit (s := S1024x512) ![0, 0] S512x512.size inb_S1024x512_S512x512_0_0
abbrev rU : Rect S1024x512 := Rect.unit (s := S1024x512) ![512, 0] S512x512.size inb_S1024x512_S512x512_512_0

/-! ## What the body leaves in each output buffer -/

/-- The new hidden state's buffer after the body: the lower half's store, then the upper half's (last first). -/
def out0_6 (x0 x1 x2 : Vec F S1024x512 .f32) (x3 x4 : Vec F S512x2048 .bf16) (x5 : Vec F S1x2048 .f32) : Vec F S1024x512 .f32 :=
  View.canon [⟨rU, k0_pay3 (k0_pay4 (View.ld x3 rW)) (k0_pay5 (View.ld x4 rW)) (k0_pay6 (View.ld x5 rB)) (k0_pay10 (View.ld x0 rU)) (k0_pay11 (View.ld x1 rU)) (View.ld x2 rU)⟩,
    ⟨rT, k0_pay9 (View.ld x3 rW) (View.ld x4 rW) (View.ld x5 rB) (View.ld x0 rT) (View.ld x1 rT) (View.ld x2 rT)⟩]

/-- The new cell state's buffer after the body. -/
def out0_7 (x0 x1 x2 : Vec F S1024x512 .f32) (x3 x4 : Vec F S512x2048 .bf16) (x5 : Vec F S1x2048 .f32) : Vec F S1024x512 .f32 :=
  View.canon [⟨rU, k0_pay2 (k0_pay4 (View.ld x3 rW)) (k0_pay5 (View.ld x4 rW)) (k0_pay6 (View.ld x5 rB)) (k0_pay10 (View.ld x0 rU)) (k0_pay11 (View.ld x1 rU)) (View.ld x2 rU)⟩,
    ⟨rT, k0_pay8 (View.ld x3 rW) (View.ld x4 rW) (View.ld x5 rB) (View.ld x0 rT) (View.ld x1 rT) (View.ld x2 rT)⟩]

/-- The two half-tile stores tile a 1024-row buffer, so they cover it. -/
theorem cover_halves (p0 : Vec F S512x512 .f32) (p1 : Vec F S512x512 .f32) (y : S1024x512.Idx) :
    ∃ pc ∈ ([⟨rU, p0⟩, ⟨rT, p1⟩] : List (View.Piece (Elt F) S1024x512 .f32)), y ∈ pc.1.set :=
  View.cover_of_tiled [⟨rU, p0⟩, ⟨rT, p1⟩] S512x512.size (by rfl) y

/-! ## The body's triple -/

set_option maxHeartbeats 4000000 in
/-- The kernel body on whole buffers — the six inputs' at contents `x0 … x5`, the two outputs' at anything — runs to
    its end with the inputs' as they were and each output's at the two half-tile expressions of the inputs'. -/
theorem sound_kernel (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_halves _ _)
  iexists _; isplitr
  swap; · iexact H7
  ipureintro
  try dsimp only
  exact View.read_writes_eq_canon _ _ _ (cover_halves _ _)

/-! ## The proof data -/

/-- After the body at point `t` each input's buffer holds its block and each output's the two half-tile
    expressions of the six input blocks; the arrays are the launch's; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, nothing faulting, with every window's array at what the
    proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and leaves its nineteen arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.Spec.lean ====
/-
  The mathematics both programs compute: one step of an LSTM cell over a batch of 8192 rows and 512 hidden units.

  For each gate (forget, input, candidate, output) there are two weight matrices `Wx`, `Wh` of shape [512, 512]
  (row `j` holds the weights of hidden unit `j`) and two bias vectors `bx`, `bh` of length 512. The gate's
  pre-activation of batch row `r` at unit `j` is

      (Σ_d x(r,d)·Wx(j,d) + Σ_d h(r,d)·Wh(j,d)) + (bx(j) + bh(j)).

  The new cell state is  σ(forget)·c + σ(input)·tanh(candidate)  and the new hidden state  σ(output)·tanh(new cell),
  with σ the logistic function, everything on the extended reals. Only the grouping of the four summands of a
  pre-activation differs between the two programs, and addition of extended reals is commutative and associative,
  so no finiteness of the inputs is needed anywhere.
-/
import Idealize.ShloMosaic.PureOps.Ideal
import Idealize.ShloMosaic.Lib.ValueIdx

noncomputable section

open scoped BigOperators

namespace Cert.Spec

open Idealize.ShloMosaic Idealize.ShloMosaic.ValueIdx

/-- The batch arrays [8192, 512], a weight matrix [512, 512], a bias vector [512]. -/
abbrev SX : Shape := ⟨2, ![8192, 512]⟩
abbrev SW : Shape := ⟨2, ![512, 512]⟩
abbrev SV : Shape := ⟨1, ![512]⟩

/-- One pre-activation from one row of `x`, one row of `h`, the two weight rows of the unit and its bias:
    (x·wx + h·wh) + b. -/
def preRow (xr hr wx wh : Fin 512 → EReal) (b : EReal) : EReal :=
  ((∑ d : Fin 512, xr d * wx d) + (∑ d : Fin 512, hr d * wh d)) + b

/-- The new cell state from the forget, input and candidate pre-activations and the old cell state. -/
def cellC (pf pi pg cprev : EReal) : EReal :=
  Ideal.logistic pf * cprev + Ideal.logistic pi * Ideal.tanh pg

/-- The new hidden state from the output pre-activation and the new cell state. -/
def cellH (po cnew : EReal) : EReal :=
  Ideal.logistic po * Ideal.tanh cnew

/-- A gate's pre-activation of batch row `r` at hidden unit `j`, from the whole arrays. -/
def pre (x h : SX.Idx → EReal) (Wx Wh : SW.Idx → EReal) (bx bh : SV.Idx → EReal) (r : Fin 8192) (j : Fin 512) : EReal :=
  preRow (fun d => x (ix2 r d)) (fun d => h (ix2 r d)) (fun d => Wx (ix2 j d)) (fun d => Wh (ix2 j d))
    (bx (ix1 j) + bh (ix1 j))

/-- The new cell state at (r, j). The arguments are in the programs' argument order:
    x, h, c; then per gate Wx, bx, Wh, bh for the forget (3–6), input (7–10), candidate (11–14), output (15–18) gates. -/
def cAt (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (r : Fin 8192) (j : Fin 512) : EReal :=
  cellC (pre x0 x1 x3 x5 x4 x6 r j) (pre x0 x1 x7 x9 x8 x10 r j) (pre x0 x1 x11 x13 x12 x14 r j) (x2 (ix2 r j))

/-- The new hidden state at (r, j). -/
def hAt (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (x15 : SW.Idx → EReal) (x16 : SV.Idx → EReal) (x17 : SW.Idx → EReal) (x18 : SV.Idx → EReal)
    (r : Fin 8192) (j : Fin 512) : EReal :=
  cellH (pre x0 x1 x15 x17 x16 x18 r j) (cAt x0 x1 x2 x3 x4 x5 x6 x7 x8 x9 x10 x11 x12 x13 x14 r j)

/-- The new cell state as a whole array. -/
def cNew (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal) : SX.Idx → EReal :=
  fun i => cAt x0 x1 x2 x3 x4 x5 x6 x7 x8 x9 x10 x11 x12 x13 x14 ⟨(i 0).val, (i 0).isLt⟩ ⟨(i 1).val, (i 1).isLt⟩

/-- The new hidden state as a whole array. -/
def hNew (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (x15 : SW.Idx → EReal) (x16 : SV.Idx → EReal) (x17 : SW.Idx → EReal) (x18 : SV.Idx → EReal) : SX.Idx → EReal :=
  fun i => hAt x0 x1 x2 x3 x4 x5 x6 x7 x8 x9 x10 x11 x12 x13 x14 x15 x16 x17 x18 ⟨(i 0).val, (i 0).isLt⟩ ⟨(i 1).val, (i 1).isLt⟩

theorem cNew_ix2 (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal) (r : Fin 8192) (j : Fin 512) :
    cNew x0 x1 x2 x3 x4 x5 x6 x7 x8 x9 x10 x11 x12 x13 x14 (ix2 r j) = cAt x0 x1 x2 x3 x4 x5 x6 x7 x8 x9 x10 x11 x12 x13 x14 r j := rfl

theorem hNew_ix2 (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (x15 : SW.Idx → EReal) (x16 : SV.Idx → EReal) (x17 : SW.Idx → EReal) (x18 : SV.Idx → EReal) (r : Fin 8192) (j : Fin 512) :
    hNew x0 x1 x2 x3 x4 x5 x6 x7 x8 x9 x10 x11 x12 x13 x14 x15 x16 x17 x18 (ix2 r j)
      = hAt x0 x1 x2 x3 x4 x5 x6 x7 x8 x9 x10 x11 x12 x13 x14 x15 x16 x17 x18 r j := rfl

/-- Column `g·512 + q` of the kernel's [·, 2048] arrays: gate `g`'s unit `q`. -/
def col (g : Fin 4) (q : Fin 512) : Fin 2048 := ⟨g.val * 512 + q.val, by have := g.isLt; have := q.isLt; omega⟩

/-- The two programs group a pre-activation's four summands differently. -/
theorem add_regroup (a b p q : EReal) : ((a + p) + b) + q = (a + b) + (p + q) := by
  rw [add_assoc a p b, add_comm p b, ← add_assoc a b p, add_assoc (a + b) p q]

end Cert.Spec

end
-- ==== Proof.Payload.lean ====
/-
  The kernel's pure values, read at an index.

  The kernel handles a [1024, 512] batch tile in two halves of 512 rows. For each half it forms the [512, 2048]
  array of pre-activations: entry (p, c) is

      (Σ_d x(p,d)·Wx(d,c) + Σ_d h(p,d)·Wh(d,c)) + b(0,c),

  the two products being accumulated into zero (so each is the plain sum; narrowing an operand to a shorter
  format is the identity on the extended reals), and the bias row being laid along every row. Column
  g·512 + q of that array is gate g's pre-activation of unit q: the four column blocks are cut out at
  offsets 0 (forget), 512 (candidate), 1024 (input), 1536 (output). The new cell state at (p, q) is
  σ(forget)·c + σ(input)·tanh(candidate) and the new hidden state σ(output)·tanh(new cell), all lane by lane.
-/
import proofs.«138366_j52338471469772_2_alg».proof.Proof.Gen.KernelIdeal.Skeleton
import proofs.«138366_j52338471469772_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

open scoped BigOperators

namespace Cert.KernelIdeal.PayValue

open Cert.KernelIdeal Cert.KernelIdeal.Gen Cert.Spec Idealize.ShloMosaic Idealize.ShloMosaic.ValueIdx

/-! ## The shape casts to the same shape and the narrowings are identities -/

theorem pay4_eq (v0 : Vec Ideal S512x2048 .bf16) : k0_pay4 (F := Ideal) v0 = v0 :=
  shapeCast_self v0 _

theorem pay5_eq (v2 : Vec Ideal S512x2048 .bf16) : k0_pay5 (F := Ideal) v2 = v2 :=
  shapeCast_self v2 _

theorem pay6_eq (v4 : Vec Ideal S1x2048 .f32) : k0_pay6 (F := Ideal) v4 = v4 :=
  shapeCast_self v4 _

theorem pay10_eq (v31 : Vec Ideal S512x512 .f32) : k0_pay10 (F := Ideal) v31 = v31 := rfl

theorem pay11_eq (v33 : Vec Ideal S512x512 .f32) : k0_pay11 (F := Ideal) v33 = v33 := rfl

/-! ## One product, the bias row, one column block -/

/-- A [512, 512] by [512, 2048] product accumulated into zero has at (p, c) the sum over d of X(p,d)·W(d,c). -/
theorem mm_apply (X : FVec Ideal S512x512 .bf16) (W : FVec Ideal S512x2048 .bf16) (p : Fin 512) (c : Fin 2048) :
    matmul dot_S512x512_S512x2048_S512x2048_1_0_0_1_n_n none X W (constant S512x2048 .f32 0x00000000#32) (ix2 p c)
      = ∑ d : Fin 512, X (ix2 p d) * W (ix2 d c) := by
  rw [matmul_zero_eq_dotGeneral]
  exact StackMember.dotGeneral_plain_apply none X W p c

/-- The pre-activations of the second half at (p, c). -/
theorem pre1_apply (v1 v3 : FVec Ideal S512x2048 .bf16) (v5 : FVec Ideal S1x2048 .f32) (v32 v34 : FVec Ideal S512x512 .bf16)
    (p : Fin 512) (c : Fin 2048) :
    k0_pay1 (F := Ideal) v1 v3 v5 v32 v34 (ix2 p c)
      = preRow (fun d => v32 (ix2 p d)) (fun d => v34 (ix2 p d)) (fun d => v1 (ix2 d c)) (fun d => v3 (ix2 d c))
          (v5 (ix2 0 c)) := by
  unfold k0_pay1 preRow
  rw [addf_apply, addf_apply, mm_apply, mm_apply, broadcastTo_1b_ab_apply]

/-- The pre-activations of the first half at (p, c). -/
theorem pre7_apply (v0 v2 : Vec Ideal S512x2048 .bf16) (v4 : Vec Ideal S1x2048 .f32) (v6 v8 : Vec Ideal S512x512 .f32)
    (p : Fin 512) (c : Fin 2048) :
    k0_pay7 (F := Ideal) v0 v2 v4 v6 v8 (ix2 p c)
      = preRow (fun d => v6 (ix2 p d)) (fun d => v8 (ix2 p d)) (fun d => v0 (ix2 d c)) (fun d => v2 (ix2 d c))
          (v4 (ix2 0 c)) := by
  unfold k0_pay7
  rw [pay4_eq, pay5_eq, pay6_eq]
  exact pre1_apply v0 v2 v4 v6 v8 p c

/-- Column block g of a [512, 2048] array at (p, q) is the array at (p, g·512 + q). -/
theorem block_apply (X : FVec Ideal S512x2048 .f32) (g : Fin 4) (o : Nat) (ho : o = g.val * 512)
    (h : S512x2048.Slices ![0, o] S512x512) (p q : Fin 512) :
    extractStridedSlice S512x512 ![0, o] X h (ix2 p q) = X (ix2 p (col g q)) :=
  slice2_axis1_apply o X h p q (col g q) (by subst ho; rfl)

/-! ## The cell's two outputs from an array of pre-activations -/

/-- The new cell state at (p, q), from the forget (block 0), input (block 2) and candidate (block 1) columns. -/
theorem cell_read (P : FVec Ideal S512x2048 .f32) (cprev : FVec Ideal S512x512 .f32) (p q : Fin 512) :
    addf (mulf (logistic (extractStridedSlice S512x512 ![0, 0] P slices_S512x2048_o0_0_S512x512)) cprev)
        (mulf (logistic (extractStridedSlice S512x512 ![0, 1024] P slices_S512x2048_o0_1024_S512x512))
          (tanh (extractStridedSlice S512x512 ![0, 512] P slices_S512x2048_o0_512_S512x512))) (ix2 p q)
      = cellC (P (ix2 p (col 0 q))) (P (ix2 p (col 2 q))) (P (ix2 p (col 1 q))) (cprev (ix2 p q)) := by
  have e0 := block_apply P 0 0 rfl slices_S512x2048_o0_0_S512x512 p q
  have e2 := block_apply P 2 1024 rfl slices_S512x2048_o0_1024_S512x512 p q
  have e1 := block_apply P 1 512 rfl slices_S512x2048_o0_512_S512x512 p q
  show Ideal.logistic (extractStridedSlice S512x512 ![0, 0] P slices_S512x2048_o0_0_S512x512 (ix2 p q)) * cprev (ix2 p q)
      + Ideal.logistic (extractStridedSlice S512x512 ![0, 1024] P slices_S512x2048_o0_1024_S512x512 (ix2 p q))
        * Ideal.tanh (extractStridedSlice S512x512 ![0, 512] P slices_S512x2048_o0_512_S512x512 (ix2 p q)) = _
  rw [e0, e2, e1]
  rfl

/-- The new hidden state at (p, q), from the output column (block 3) and the new cell state. -/
theorem hid_read (P : FVec Ideal S512x2048 .f32) (C : FVec Ideal S512x512 .f32) (p q : Fin 512) :
    mulf (logistic (extractStridedSlice S512x512 ![0, 1536] P slices_S512x2048_o0_1536_S512x512)) (tanh C) (ix2 p q)
      = cellH (P (ix2 p (col 3 q))) (C (ix2 p q)) := by
  have e3 := block_apply P 3 1536 rfl slices_S512x2048_o0_1536_S512x512 p q
  show Ideal.logistic (extractStridedSlice S512x512 ![0, 1536] P slices_S512x2048_o0_1536_S512x512 (ix2 p q))
      * Ideal.tanh (C (ix2 p q)) = _
  rw [e3]
  rfl

/-! ## The first half -/

theorem pay8_apply (v0 v2 : Vec Ideal S512x2048 .bf16) (v4 : Vec Ideal S1x2048 .f32) (v6 v8 v23 : Vec Ideal S512x512 .f32)
    (p q : Fin 512) :
    k0_pay8 (F := Ideal) v0 v2 v4 v6 v8 v23 (ix2 p q)
      = cellC
          (preRow (fun d => v6 (ix2 p d)) (fun d => v8 (ix2 p d)) (fun d => v0 (ix2 d (col 0 q)))
            (fun d => v2 (ix2 d (col 0 q))) (v4 (ix2 0 (col 0 q))))
          (preRow (fun d => v6 (ix2 p d)) (fun d => v8 (ix2 p d)) (fun d => v0 (ix2 d (col 2 q)))
            (fun d => v2 (ix2 d (col 2 q))) (v4 (ix2 0 (col 2 q))))
          (preRow (fun d => v6 (ix2 p d)) (fun d => v8 (ix2 p d)) (fun d => v0 (ix2 d (col 1 q)))
            (fun d => v2 (ix2 d (col 1 q))) (v4 (ix2 0 (col 1 q))))
          (v23 (ix2 p q)) := by
  unfold k0_pay8
  refine (cell_read (k0_pay7 (F := Ideal) v0 v2 v4 v6 v8) v23 p q).trans ?_
  rw [pre7_apply, pre7_apply, pre7_apply]

theorem pay9_apply (v0 v2 : Vec Ideal S512x2048 .bf16) (v4 : Vec Ideal S1x2048 .f32) (v6 v8 v23 : Vec Ideal S512x512 .f32)
    (p q : Fin 512) :
    k0_pay9 (F := Ideal) v0 v2 v4 v6 v8 v23 (ix2 p q)
      = cellH
          (preRow (fun d => v6 (ix2 p d)) (fun d => v8 (ix2 p d)) (fun d => v0 (ix2 d (col 3 q)))
            (fun d => v2 (ix2 d (col 3 q))) (v4 (ix2 0 (col 3 q))))
          (k0_pay8 (F := Ideal) v0 v2 v4 v6 v8 v23 (ix2 p q)) := by
  unfold k0_pay9
  refine (hid_read (k0_pay7 (F := Ideal) v0 v2 v4 v6 v8) (k0_pay8 (F := Ideal) v0 v2 v4 v6 v8 v23) p q).trans ?_
  rw [pre7_apply]

/-! ## The second half -/

theorem pay2_apply (v1 v3 : FVec Ideal S512x2048 .bf16) (v5 : FVec Ideal S1x2048 .f32) (v32 v34 : FVec Ideal S512x512 .bf16)
    (v48 : Vec Ideal S512x512 .f32) (p q : Fin 512) :
    k0_pay2 (F := Ideal) v1 v3 v5 v32 v34 v48 (ix2 p q)
      = cellC
          (preRow (fun d => v32 (ix2 p d)) (fun d => v34 (ix2 p d)) (fun d => v1 (ix2 d (col 0 q)))
            (fun d => v3 (ix2 d (col 0 q))) (v5 (ix2 0 (col 0 q))))
          (preRow (fun d => v32 (ix2 p d)) (fun d => v34 (ix2 p d)) (fun d => v1 (ix2 d (col 2 q)))
            (fun d => v3 (ix2 d (col 2 q))) (v5 (ix2 0 (col 2 q))))
          (preRow (fun d => v32 (ix2 p d)) (fun d => v34 (ix2 p d)) (fun d => v1 (ix2 d (col 1 q)))
            (fun d => v3 (ix2 d (col 1 q))) (v5 (ix2 0 (col 1 q))))
          (v48 (ix2 p q)) := by
  unfold k0_pay2
  refine (cell_read (k0_pay1 (F := Ideal) v1 v3 v5 v32 v34) v48 p q).trans ?_
  rw [pre1_apply, pre1_apply, pre1_apply]

theorem pay3_apply (v1 v3 : FVec Ideal S512x2048 .bf16) (v5 : FVec Ideal S1x2048 .f32) (v32 v34 : FVec Ideal S512x512 .bf16)
    (v48 : Vec Ideal S512x512 .f32) (p q : Fin 512) :
    k0_pay3 (F := Ideal) v1 v3 v5 v32 v34 v48 (ix2 p q)
      = cellH
          (preRow (fun d => v32 (ix2 p d)) (fun d => v34 (ix2 p d)) (fun d => v1 (ix2 d (col 3 q)))
            (fun d => v3 (ix2 d (col 3 q))) (v5 (ix2 0 (col 3 q))))
          (k0_pay2 (F := Ideal) v1 v3 v5 v32 v34 v48 (ix2 p q)) := by
  unfold k0_pay3
  refine (hid_read (k0_pay1 (F := Ideal) v1 v3 v5 v32 v34) (k0_pay2 (F := Ideal) v1 v3 v5 v32 v34 v48) p q).trans ?_
  rw [pre1_apply]

end Cert.KernelIdeal.PayValue

end
-- ==== Proof.HostPrefix.lean ====
/-
  The host operations that run before the kernel, read at an index.

  Before the kernel is launched the program prepares three arrays from the weights and biases: it transposes the four
  gates' input weight matrices and joins them along the columns into a [512, 2048] array (and likewise the four
  recurrent weight matrices), and it adds each gate's two bias vectors, joins the four sums into a [2048] vector and
  gives it a leading unit axis. The gates come in the order forget, candidate, input, output. Here each prepared array
  is read at row `d` and column `g·512 + q`: the weights give entry `(q, d)` of gate `g`'s own matrix, the bias gives
  the sum of gate `g`'s two biases at `q`. The change of the weights' number format is the identity on extended reals.
-/
import proofs.«138366_j52338471469772_2_alg».proof.Proof.Gen.KernelIdeal.Launch
import proofs.«138366_j52338471469772_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Cert.Spec Idealize.ShloMosaic Idealize.ShloMosaic.ValueIdx Idealize.ShloMosaic.StableHlo

/-! ## Joined arrays read at a gate's column

The kernel's [·, 2048] arrays hold the four gates side by side: column `g·512 + q` is gate `g`'s unit `q`
(`Cert.Spec.col`). A concatenation read there is its piece `g` read at `q`. -/

/-- Four [512, 512] blocks joined along the columns, read at row `d` and column `g·512 + q`: block `g` at `(d, q)`. -/
theorem cat4_cols (x0 x1 x2 x3 : S512x512.Idx → EReal) (d q : Fin 512) :
    let C : S512x2048.Idx → EReal := concatenate S512x2048 1
      [⟨S512x512, x0⟩, ⟨S512x512, x1⟩, ⟨S512x512, x2⟩, ⟨S512x512, x3⟩]
      concatenates_S512x512_S512x512_S512x512_S512x512_S512x2048_d1
    C (ix2 d (col 0 q)) = x0 (ix2 d q) ∧ C (ix2 d (col 1 q)) = x1 (ix2 d q)
      ∧ C (ix2 d (col 2 q)) = x2 (ix2 d q) ∧ C (ix2 d (col 3 q)) = x3 (ix2 d q) := by
  intro C
  -- off the joined axis the piece's index and the whole's agree: both have row `d`
  have hi : ∀ (g : Fin 4) (b : Fin S512x512.rank), b.cast (rfl : S512x512.rank = S512x2048.rank) ≠ (1 : Fin S512x2048.rank) →
      ((ix2 d q : S512x512.Idx) b).val = ((ix2 d (col g q) : S512x2048.Idx) (b.cast rfl)).val :=
    fun g b hb => match b, hb with
      | ⟨0, _⟩, _ => rfl
      | ⟨1, _⟩, hb => absurd rfl hb
  -- on it, the pieces before piece `g` span `g·512` columns
  refine ⟨?_, ?_, ?_, ?_⟩
  · exact concatenate_apply_piece (1 : Fin S512x2048.rank) _ _ (ix2 d (col 0 q)) 0 (by simp) S512x512 x0 rfl rfl 0 rfl (ix2 d q) (hi 0) (by show 0 + q.val = 0 * 512 + q.val; omega)
  · exact concatenate_apply_piece (1 : Fin S512x2048.rank) _ _ (ix2 d (col 1 q)) 1 (by simp) S512x512 x1 rfl rfl 512 rfl (ix2 d q) (hi 1) (by show 512 + q.val = 1 * 512 + q.val; omega)
  · exact concatenate_apply_piece (1 : Fin S512x2048.rank) _ _ (ix2 d (col 2 q)) 2 (by simp) S512x512 x2 rfl rfl 1024 rfl (ix2 d q) (hi 2) (by show 1024 + q.val = 2 * 512 + q.val; omega)
  · exact concatenate_apply_piece (1 : Fin S512x2048.rank) _ _ (ix2 d (col 3 q)) 3 (by simp) S512x512 x3 rfl rfl 1536 rfl (ix2 d q) (hi 3) (by show 1536 + q.val = 3 * 512 + q.val; omega)

/-- Four [512] vectors joined end to end, read at position `g·512 + q`: vector `g` at `q`. -/
theorem cat4_vec (v0 v1 v2 v3 : S512.Idx → EReal) (q : Fin 512) :
    let C : S2048.Idx → EReal := concatenate S2048 0
      [⟨S512, v0⟩, ⟨S512, v1⟩, ⟨S512, v2⟩, ⟨S512, v3⟩] concatenates_S512_S512_S512_S512_S2048_d0
    C (ix1 (col 0 q)) = v0 (ix1 q) ∧ C (ix1 (col 1 q)) = v1 (ix1 q)
      ∧ C (ix1 (col 2 q)) = v2 (ix1 q) ∧ C (ix1 (col 3 q)) = v3 (ix1 q) := by
  intro C
  -- a vector has no axis off the joined one
  have hi : ∀ (g : Fin 4) (b : Fin S512.rank), b.cast (rfl : S512.rank = S2048.rank) ≠ (0 : Fin S2048.rank) →
      ((ix1 q : S512.Idx) b).val = ((ix1 (col g q) : S2048.Idx) (b.cast rfl)).val :=
    fun g b hb => match b, hb with
      | ⟨0, _⟩, hb => absurd rfl hb
  refine ⟨?_, ?_, ?_, ?_⟩
  · exact concatenate_apply_piece (0 : Fin S2048.rank) _ _ (ix1 (col 0 q)) 0 (by simp) S512 v0 rfl rfl 0 rfl (ix1 q) (hi 0) (by show 0 + q.val = 0 * 512 + q.val; omega)
  · exact concatenate_apply_piece (0 : Fin S2048.rank) _ _ (ix1 (col 1 q)) 1 (by simp) S512 v1 rfl rfl 512 rfl (ix1 q) (hi 1) (by show 512 + q.val = 1 * 512 + q.val; omega)
  · exact concatenate_apply_piece (0 : Fin S2048.rank) _ _ (ix1 (col 2 q)) 2 (by simp) S512 v2 rfl rfl 1024 rfl (ix1 q) (hi 2) (by show 1024 + q.val = 2 * 512 + q.val; omega)
  · exact concatenate_apply_piece (0 : Fin S2048.rank) _ _ (ix1 (col 3 q)) 3 (by simp) S512 v3 rfl rfl 1536 rfl (ix1 q) (hi 3) (by show 1536 + q.val = 3 * 512 + q.val; omega)

/-! ## The weights: transposed, joined, changed in format

Entry `(d, g·512 + q)` of the joined array is entry `(d, q)` of gate `g`'s transposed matrix, that is entry `(q, d)`
of the matrix itself: row `q` of a weight matrix holds unit `q`'s weights, so column `g·512 + q` of the joined array
does. -/

theorem weights_core (x0 x1 x2 x3 : S512x512.Idx → EReal) (d q : Fin 512) :
    let A : S512x2048.Idx → EReal := (truncf (F := Ideal) .bf16 (concatenate S512x2048 1
          [⟨S512x512, transpose S512x512 [1, 0] x0 transposes_S512x512_S512x512_1_0⟩,
           ⟨S512x512, transpose S512x512 [1, 0] x1 transposes_S512x512_S512x512_1_0⟩,
           ⟨S512x512, transpose S512x512 [1, 0] x2 transposes_S512x512_S512x512_1_0⟩,
           ⟨S512x512, transpose S512x512 [1, 0] x3 transposes_S512x512_S512x512_1_0⟩]
          concatenates_S512x512_S512x512_S512x512_S512x512_S512x2048_d1) bitsLt_bf16_f32 : S512x2048.Idx → EReal)
    A (ix2 d (col 0 q)) = x0 (ix2 q d) ∧ A (ix2 d (col 1 q)) = x1 (ix2 q d)
      ∧ A (ix2 d (col 2 q)) = x2 (ix2 q d) ∧ A (ix2 d (col 3 q)) = x3 (ix2 q d) := by
  intro A
  obtain ⟨h0, h1, h2, h3⟩ := cat4_cols
    (transpose S512x512 [1, 0] x0 transposes_S512x512_S512x512_1_0) (transpose S512x512 [1, 0] x1 transposes_S512x512_S512x512_1_0)
    (transpose S512x512 [1, 0] x2 transposes_S512x512_S512x512_1_0) (transpose S512x512 [1, 0] x3 transposes_S512x512_S512x512_1_0) d q
  exact ⟨(truncf_apply (φ := .f32) (ψ := .bf16) _ bitsLt_bf16_f32 _).trans (h0.trans (transpose_ix2_apply x0 _ d q)),
    (truncf_apply (φ := .f32) (ψ := .bf16) _ bitsLt_bf16_f32 _).trans (h1.trans (transpose_ix2_apply x1 _ d q)),
    (truncf_apply (φ := .f32) (ψ := .bf16) _ bitsLt_bf16_f32 _).trans (h2.trans (transpose_ix2_apply x2 _ d q)),
    (truncf_apply (φ := .f32) (ψ := .bf16) _ bitsLt_bf16_f32 _).trans (h3.trans (transpose_ix2_apply x3 _ d q))⟩

/-- The host operations' fold, read at the array the kernel is handed: the four transposed weight matrices joined along
    the columns (the change of format is kept as an operation here; it is the identity on extended reals). -/
theorem wx_eval (W : Valuation τ sig (Elt Ideal)) :
    (StableHlo.after (hostOps0 (F := Ideal)) W (Proc.devRef .tc main_v16) : S512x2048.Idx → EReal)
      = (truncf (F := Ideal) .bf16 (concatenate S512x2048 1
          [⟨S512x512, transpose S512x512 [1, 0] (W (Proc.devRef .tc main_arg3) : S512x512.Idx → EReal) transposes_S512x512_S512x512_1_0⟩,
           ⟨S512x512, transpose S512x512 [1, 0] (W (Proc.devRef .tc main_arg11) : S512x512.Idx → EReal) transposes_S512x512_S512x512_1_0⟩,
           ⟨S512x512, transpose S512x512 [1, 0] (W (Proc.devRef .tc main_arg7) : S512x512.Idx → EReal) transposes_S512x512_S512x512_1_0⟩,
           ⟨S512x512, transpose S512x512 [1, 0] (W (Proc.devRef .tc main_arg15) : S512x512.Idx → EReal) transposes_S512x512_S512x512_1_0⟩]
          concatenates_S512x512_S512x512_S512x512_S512x512_S512x2048_d1) bitsLt_bf16_f32 : S512x2048.Idx → EReal) := by
  dsimp only [hostOps0]
  after_results
  rfl

/-- The host operations' fold, read at the array the kernel is handed: the four transposed weight matrices joined along
    the columns (the change of format is kept as an operation here; it is the identity on extended reals). -/
theorem wh_eval (W : Valuation τ sig (Elt Ideal)) :
    (StableHlo.after (hostOps0 (F := Ideal)) W (Proc.devRef .tc main_v17) : S512x2048.Idx → EReal)
      = (truncf (F := Ideal) .bf16 (concatenate S512x2048 1
          [⟨S512x512, transpose S512x512 [1, 0] (W (Proc.devRef .tc main_arg5) : S512x512.Idx → EReal) transposes_S512x512_S512x512_1_0⟩,
           ⟨S512x512, transpose S512x512 [1, 0] (W (Proc.devRef .tc main_arg13) : S512x512.Idx → EReal) transposes_S512x512_S512x512_1_0⟩,
           ⟨S512x512, transpose S512x512 [1, 0] (W (Proc.devRef .tc main_arg9) : S512x512.Idx → EReal) transposes_S512x512_S512x512_1_0⟩,
           ⟨S512x512, transpose S512x512 [1, 0] (W (Proc.devRef .tc main_arg17) : S512x512.Idx → EReal) transposes_S512x512_S512x512_1_0⟩]
          concatenates_S512x512_S512x512_S512x512_S512x512_S512x2048_d1) bitsLt_bf16_f32 : S512x2048.Idx → EReal) := by
  dsimp only [hostOps0]
  after_results
  rfl

/-- The input weights the kernel is handed, at a gate's column: the gate's own matrix at `(q, d)`. -/
theorem wx_at (W : Valuation τ sig (Elt Ideal)) (d q : Fin 512) :
    let A : S512x2048.Idx → EReal := StableHlo.after (hostOps0 (F := Ideal)) W (Proc.devRef .tc main_v16)
    A (ix2 d (col 0 q)) = (W (Proc.devRef .tc main_arg3) : S512x512.Idx → EReal) (ix2 q d)
      ∧ A (ix2 d (col 1 q)) = (W (Proc.devRef .tc main_arg11) : S512x512.Idx → EReal) (ix2 q d)
      ∧ A (ix2 d (col 2 q)) = (W (Proc.devRef .tc main_arg7) : S512x512.Idx → EReal) (ix2 q d)
      ∧ A (ix2 d (col 3 q)) = (W (Proc.devRef .tc main_arg15) : S512x512.Idx → EReal) (ix2 q d) := by
  intro A
  have e : A = _ := wx_eval W
  rw [e]
  exact weights_core _ _ _ _ d q

/-- The recurrent weights the kernel is handed, at a gate's column: the gate's own matrix at `(q, d)`. -/
theorem wh_at (W : Valuation τ sig (Elt Ideal)) (d q : Fin 512) :
    let A : S512x2048.Idx → EReal := StableHlo.after (hostOps0 (F := Ideal)) W (Proc.devRef .tc main_v17)
    A (ix2 d (col 0 q)) = (W (Proc.devRef .tc main_arg5) : S512x512.Idx → EReal) (ix2 q d)
      ∧ A (ix2 d (col 1 q)) = (W (Proc.devRef .tc main_arg13) : S512x512.Idx → EReal) (ix2 q d)
      ∧ A (ix2 d (col 2 q)) = (W (Proc.devRef .tc main_arg9) : S512x512.Idx → EReal) (ix2 q d)
      ∧ A (ix2 d (col 3 q)) = (W (Proc.devRef .tc main_arg17) : S512x512.Idx → EReal) (ix2 q d) := by
  intro A
  have e : A = _ := wh_eval W
  rw [e]
  exact weights_core _ _ _ _ d q

/-! ## The bias: summed per gate, joined, given a leading unit axis -/

theorem bias_core (v4 v6 v12 v14 v8 v10 v16 v18 : S512.Idx → EReal) (q : Fin 512) :
    let B : S1x2048.Idx → EReal := (shapeCast S1x2048 (concatenate S2048 0
          [⟨S512, addf (F := Ideal) (φ := .f32) v4 v6⟩,
           ⟨S512, addf (F := Ideal) (φ := .f32) v12 v14⟩,
           ⟨S512, addf (F := Ideal) (φ := .f32) v8 v10⟩,
           ⟨S512, addf (F := Ideal) (φ := .f32) v16 v18⟩]
          concatenates_S512_S512_S512_S512_S2048_d0) shapeCasts_S2048_S1x2048 : S1x2048.Idx → EReal)
    B (ix2 0 (col 0 q)) = v4 (ix1 q) + v6 (ix1 q) ∧ B (ix2 0 (col 1 q)) = v12 (ix1 q) + v14 (ix1 q)
      ∧ B (ix2 0 (col 2 q)) = v8 (ix1 q) + v10 (ix1 q) ∧ B (ix2 0 (col 3 q)) = v16 (ix1 q) + v18 (ix1 q) := by
  intro B
  obtain ⟨h0, h1, h2, h3⟩ := cat4_vec (addf (F := Ideal) (φ := .f32) v4 v6) (addf (F := Ideal) (φ := .f32) v12 v14) (addf (F := Ideal) (φ := .f32) v8 v10) (addf (F := Ideal) (φ := .f32) v16 v18) q
  exact ⟨(shapeCast_a_1a_apply _ _ 0 (col 0 q)).trans (h0.trans (addf_apply v4 v6 _)),
    (shapeCast_a_1a_apply _ _ 0 (col 1 q)).trans (h1.trans (addf_apply v12 v14 _)),
    (shapeCast_a_1a_apply _ _ 0 (col 2 q)).trans (h2.trans (addf_apply v8 v10 _)),
    (shapeCast_a_1a_apply _ _ 0 (col 3 q)).trans (h3.trans (addf_apply v16 v18 _))⟩

/-- The host operations' fold, read at the bias row the kernel is handed. -/
theorem bias_eval (W : Valuation τ sig (Elt Ideal)) :
    (StableHlo.after (hostOps0 (F := Ideal)) W (Proc.devRef .tc main_v15) : S1x2048.Idx → EReal)
      = (shapeCast S1x2048 (concatenate S2048 0
          [⟨S512, addf (F := Ideal) (φ := .f32) (W (Proc.devRef .tc main_arg4) : S512.Idx → EReal) (W (Proc.devRef .tc main_arg6) : S512.Idx → EReal)⟩,
           ⟨S512, addf (F := Ideal) (φ := .f32) (W (Proc.devRef .tc main_arg12) : S512.Idx → EReal) (W (Proc.devRef .tc main_arg14) : S512.Idx → EReal)⟩,
           ⟨S512, addf (F := Ideal) (φ := .f32) (W (Proc.devRef .tc main_arg8) : S512.Idx → EReal) (W (Proc.devRef .tc main_arg10) : S512.Idx → EReal)⟩,
           ⟨S512, addf (F := Ideal) (φ := .f32) (W (Proc.devRef .tc main_arg16) : S512.Idx → EReal) (W (Proc.devRef .tc main_arg18) : S512.Idx → EReal)⟩]
          concatenates_S512_S512_S512_S512_S2048_d0) shapeCasts_S2048_S1x2048 : S1x2048.Idx → EReal) := by
  dsimp only [hostOps0]
  after_results
  rfl

/-- The bias row the kernel is handed, at a gate's column: the sum of the gate's two bias vectors at `q`. -/
theorem bias_at (W : Valuation τ sig (Elt Ideal)) (q : Fin 512) :
    let B : S1x2048.Idx → EReal := StableHlo.after (hostOps0 (F := Ideal)) W (Proc.devRef .tc main_v15)
    let b4 : S512.Idx → EReal := W (Proc.devRef .tc main_arg4)
    let b6 : S512.Idx → EReal := W (Proc.devRef .tc main_arg6)
    let b12 : S512.Idx → EReal := W (Proc.devRef .tc main_arg12)
    let b14 : S512.Idx → EReal := W (Proc.devRef .tc main_arg14)
    let b8 : S512.Idx → EReal := W (Proc.devRef .tc main_arg8)
    let b10 : S512.Idx → EReal := W (Proc.devRef .tc main_arg10)
    let b16 : S512.Idx → EReal := W (Proc.devRef .tc main_arg16)
    let b18 : S512.Idx → EReal := W (Proc.devRef .tc main_arg18)
    B (ix2 0 (col 0 q)) = b4 (ix1 q) + b6 (ix1 q)
      ∧ B (ix2 0 (col 1 q)) = b12 (ix1 q) + b14 (ix1 q)
      ∧ B (ix2 0 (col 2 q)) = b8 (ix1 q) + b10 (ix1 q)
      ∧ B (ix2 0 (col 3 q)) = b16 (ix1 q) + b18 (ix1 q) := by
  intro B b4 b6 b12 b14 b8 b10 b16 b18
  have e : B = _ := bias_eval W
  rw [e]
  exact bias_core b4 b6 b12 b14 b8 b10 b16 b18 q

end Cert.KernelIdeal.HostValue

end
-- ==== Proof.Bridge.lean ====
/-
  From a half-tile's expression to the whole-array specification, over variables.

  A half-tile's new cell state at local position (p, q) is the cell function of three pre-activations, each the
  dot products of row `p` of the half-tile's x and h rows with one COLUMN of the two prepared [512, 2048] weight
  matrices, plus one entry of the prepared [1, 2048] bias row. If row `p` of the half-tile is row `R` of the
  batch, column `g·512 + q` of a prepared matrix at row `d` is entry (q, d) of gate `g`'s weight matrix, and entry
  `g·512 + q` of the prepared row is the sum of gate `g`'s two biases at `q` — the prepared arrays list the gates in
  the order forget, candidate, input, output — then that expression is the specification's value at (R, q).
-/
import proofs.«138366_j52338471469772_2_alg».proof.Proof.Spec

noncomputable section

open scoped BigOperators

namespace Cert.Spec

open Idealize.ShloMosaic Idealize.ShloMosaic.ValueIdx

abbrev SP : Shape := ⟨2, ![512, 2048]⟩
abbrev SR : Shape := ⟨2, ![1, 2048]⟩

/-- One gate's pre-activation, from a half-tile's rows and one column of the prepared arrays. -/
theorem pre_of_blocks (x h : SX.Idx → EReal) (Wx Wh : SW.Idx → EReal) (bx bh : SV.Idx → EReal)
    (X H : SW.Idx → EReal) (wx wh : SP.Idx → EReal) (b : SR.Idx → EReal) (R : Fin 8192) (p q : Fin 512) (k : Fin 2048)
    (hX : ∀ d, X (ix2 p d) = x (ix2 R d)) (hH : ∀ d, H (ix2 p d) = h (ix2 R d))
    (hwx : ∀ d, wx (ix2 d k) = Wx (ix2 q d)) (hwh : ∀ d, wh (ix2 d k) = Wh (ix2 q d))
    (hb : b (ix2 0 k) = bx (ix1 q) + bh (ix1 q)) :
    preRow (fun d => X (ix2 p d)) (fun d => H (ix2 p d)) (fun d => wx (ix2 d k)) (fun d => wh (ix2 d k)) (b (ix2 0 k))
      = pre x h Wx Wh bx bh R q := by
  unfold pre
  simp only [hX, hH, hwx, hwh, hb]

/-- The new cell state of a half-tile at (p, q) is the specification's at (R, q). -/
theorem cell_of_blocks (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (X H C : SW.Idx → EReal) (wx wh : SP.Idx → EReal) (b : SR.Idx → EReal) (R : Fin 8192) (p q : Fin 512)
    (hX : ∀ d, X (ix2 p d) = x0 (ix2 R d)) (hH : ∀ d, H (ix2 p d) = x1 (ix2 R d)) (hC : C (ix2 p q) = x2 (ix2 R q))
    (hwx0 : ∀ d, wx (ix2 d (col 0 q)) = x3 (ix2 q d)) (hwx1 : ∀ d, wx (ix2 d (col 1 q)) = x11 (ix2 q d)) (hwx2 : ∀ d, wx (ix2 d (col 2 q)) = x7 (ix2 q d))
    (hwh0 : ∀ d, wh (ix2 d (col 0 q)) = x5 (ix2 q d)) (hwh1 : ∀ d, wh (ix2 d (col 1 q)) = x13 (ix2 q d)) (hwh2 : ∀ d, wh (ix2 d (col 2 q)) = x9 (ix2 q d))
    (hb0 : b (ix2 0 (col 0 q)) = x4 (ix1 q) + x6 (ix1 q)) (hb1 : b (ix2 0 (col 1 q)) = x12 (ix1 q) + x14 (ix1 q))
    (hb2 : b (ix2 0 (col 2 q)) = x8 (ix1 q) + x10 (ix1 q)) :
    cellC (preRow (fun d => X (ix2 p d)) (fun d => H (ix2 p d)) (fun d => wx (ix2 d (col 0 q))) (fun d => wh (ix2 d (col 0 q))) (b (ix2 0 (col 0 q))))
          (preRow (fun d => X (ix2 p d)) (fun d => H (ix2 p d)) (fun d => wx (ix2 d (col 2 q))) (fun d => wh (ix2 d (col 2 q))) (b (ix2 0 (col 2 q))))
          (preRow (fun d => X (ix2 p d)) (fun d => H (ix2 p d)) (fun d => wx (ix2 d (col 1 q))) (fun d => wh (ix2 d (col 1 q))) (b (ix2 0 (col 1 q))))
          (C (ix2 p q))
      = cAt x0 x1 x2 x3 x4 x5 x6 x7 x8 x9 x10 x11 x12 x13 x14 R q := by
  unfold cAt
  rw [pre_of_blocks x0 x1 x3 x5 x4 x6 X H wx wh b R p q (col 0 q) hX hH hwx0 hwh0 hb0,
    pre_of_blocks x0 x1 x7 x9 x8 x10 X H wx wh b R p q (col 2 q) hX hH hwx2 hwh2 hb2,
    pre_of_blocks x0 x1 x11 x13 x12 x14 X H wx wh b R p q (col 1 q) hX hH hwx1 hwh1 hb1, hC]

/-- The new hidden state of a half-tile at (p, q) is the specification's at (R, q), given its new cell state is. -/
theorem hid_of_blocks (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (x15 : SW.Idx → EReal) (x16 : SV.Idx → EReal) (x17 : SW.Idx → EReal) (x18 : SV.Idx → EReal)
    (X H : SW.Idx → EReal) (wx wh : SP.Idx → EReal) (b : SR.Idx → EReal) (cnew : EReal) (R : Fin 8192) (p q : Fin 512)
    (hX : ∀ d, X (ix2 p d) = x0 (ix2 R d)) (hH : ∀ d, H (ix2 p d) = x1 (ix2 R d))
    (hwx3 : ∀ d, wx (ix2 d (col 3 q)) = x15 (ix2 q d)) (hwh3 : ∀ d, wh (ix2 d (col 3 q)) = x17 (ix2 q d))
    (hb3 : b (ix2 0 (col 3 q)) = x16 (ix1 q) + x18 (ix1 q))
    (hc : cnew = cAt x0 x1 x2 x3 x4 x5 x6 x7 x8 x9 x10 x11 x12 x13 x14 R q) :
    cellH (preRow (fun d => X (ix2 p d)) (fun d => H (ix2 p d)) (fun d => wx (ix2 d (col 3 q))) (fun d => wh (ix2 d (col 3 q))) (b (ix2 0 (col 3 q)))) cnew
      = hAt x0 x1 x2 x3 x4 x5 x6 x7 x8 x9 x10 x11 x12 x13 x14 x15 x16 x17 x18 R q := by
  unfold hAt
  rw [pre_of_blocks x0 x1 x15 x17 x16 x18 X H wx wh b R p q (col 3 q) hX hH hwx3 hwh3 hb3, hc]

end Cert.Spec

end
-- ==== Proof.Pieces.lean ====
/-
  The two output buffers after the body, read at an index, over variables.

  Take any six input blocks: three [1024, 512] tiles X, H, C whose row `u` is row `R u` of the batch arrays, two
  [512, 2048] matrices whose column g·512 + q at row d is entry (q, d) of gate g's weight matrix, and a [1, 2048]
  row whose entry g·512 + q is the sum of gate g's two biases at q (gates in the order forget, candidate, input,
  output). Then the new-cell-state buffer holds at (u, q) the specification's new cell state at (R u, q), and the
  new-hidden-state buffer its new hidden state: each buffer is two half-tile stores, the upper over rows 0 … 511,
  the lower over rows 512 … 1023, each the half-tile expression of the blocks' loaded halves.
-/
import proofs.«138366_j52338471469772_2_alg».proof.Proof.FrameKI
import proofs.«138366_j52338471469772_2_alg».proof.Proof.Payload
import proofs.«138366_j52338471469772_2_alg».proof.Proof.Bridge
import Idealize.ShloMosaic.Lib.Pipeline.Value

set_option maxRecDepth 16384

noncomputable section

namespace Cert.KernelIdeal.Pieces

open Cert.KernelIdeal Cert.KernelIdeal.Gen Cert.KernelIdeal.Hand Cert.KernelIdeal.PayValue Cert.Spec
open Idealize.ShloMosaic Idealize.ShloMosaic.ValueIdx

/-- Row `p` of the upper half is row `p` of the tile, of the lower half row 512 + p. -/
def up (p : Fin 512) : Fin 1024 := ⟨p.val, by have := p.isLt; omega⟩
def lo (p : Fin 512) : Fin 1024 := ⟨512 + p.val, by have := p.isLt; omega⟩

theorem hz : (![0, 0] : Fin 2 → Nat) = fun _ => 0 := funext fun a => by fin_cases a <;> rfl

/-- A load through the upper half's rectangle. -/
theorem ldT_apply (X : Vec Ideal S1024x512 .f32) (p d : Fin 512) : View.ld X (rT) (ix2 p d) = X (ix2 (up p) d) := by
  show X (rT.emb (ix2 p d)) = _
  refine congrArg _ (funext fun a => Fin.ext ?_)
  match a with
  | ⟨0, _⟩ => show 0 + 1 * p.val = p.val; omega
  | ⟨1, _⟩ => show 0 + 1 * d.val = d.val; omega

/-- A load through the lower half's rectangle. -/
theorem ldU_apply (X : Vec Ideal S1024x512 .f32) (p d : Fin 512) : View.ld X (rU) (ix2 p d) = X (ix2 (lo p) d) := by
  show X (rU.emb (ix2 p d)) = _
  refine congrArg _ (funext fun a => Fin.ext ?_)
  match a with
  | ⟨0, _⟩ => show 512 + 1 * p.val = 512 + p.val; omega
  | ⟨1, _⟩ => show 0 + 1 * d.val = d.val; omega

theorem ldW_eq (w : Vec Ideal S512x2048 .bf16) : View.ld w rW = w := View.ld_unit_zero (S := S512x2048) hz _ w
theorem ldB_eq (b : Vec Ideal S1x2048 .f32) : View.ld b rB = b := View.ld_unit_zero (S := S1x2048) hz _ b

/-- The two coordinates of a position in a tile. -/
def fst1024 (y : S1024x512.Idx) : Fin 1024 := ⟨(y 0).val, (y 0).isLt⟩
def snd512 (y : S1024x512.Idx) : Fin 512 := ⟨(y 1).val, (y 1).isLt⟩

theorem fst_embT (p d : Fin 512) : fst1024 (rT.emb (ix2 p d)) = up p := Fin.ext (by show 0 + 1 * p.val = p.val; omega)
theorem snd_embT (p d : Fin 512) : snd512 (rT.emb (ix2 p d)) = d := Fin.ext (by show 0 + 1 * d.val = d.val; omega)
theorem fst_embU (p d : Fin 512) : fst1024 (rU.emb (ix2 p d)) = lo p := Fin.ext (by show 512 + 1 * p.val = 512 + p.val; omega)
theorem snd_embU (p d : Fin 512) : snd512 (rU.emb (ix2 p d)) = d := Fin.ext (by show 0 + 1 * d.val = d.val; omega)

section
variable (x0 x1 x2 : SX.Idx → EReal) (x3 : SW.Idx → EReal) (x4 : SV.Idx → EReal) (x5 : SW.Idx → EReal) (x6 : SV.Idx → EReal)
    (x7 : SW.Idx → EReal) (x8 : SV.Idx → EReal) (x9 : SW.Idx → EReal) (x10 : SV.Idx → EReal)
    (x11 : SW.Idx → EReal) (x12 : SV.Idx → EReal) (x13 : SW.Idx → EReal) (x14 : SV.Idx → EReal)
    (x15 : SW.Idx → EReal) (x16 : SV.Idx → EReal) (x17 : SW.Idx → EReal) (x18 : SV.Idx → EReal)
variable (X H C : Vec Ideal S1024x512 .f32) (wx wh : Vec Ideal S512x2048 .bf16) (b : Vec Ideal S1x2048 .f32) (R : Fin 1024 → Fin 8192)
variable (hX : ∀ u d, X (ix2 u d) = x0 (ix2 (R u) d)) (hH : ∀ u d, H (ix2 u d) = x1 (ix2 (R u) d)) (hC : ∀ u d, C (ix2 u d) = x2 (ix2 (R u) d))
    (hwx : ∀ d q, wx (ix2 d (col 0 q)) = x3 (ix2 q d) ∧ wx (ix2 d (col 1 q)) = x11 (ix2 q d) ∧ wx (ix2 d (col 2 q)) = x7 (ix2 q d) ∧ wx (ix2 d (col 3 q)) = x15 (ix2 q d))
    (hwh : ∀ d q, wh (ix2 d (col 0 q)) = x5 (ix2 q d) ∧ wh (ix2 d (col 1 q)) = x13 (ix2 q d) ∧ wh (ix2 d (col 2 q)) = x9 (ix2 q d) ∧ wh (ix2 d (col 3 q)) = x17 (ix2 q d))
    (hb : ∀ q, b (ix2 0 (col 0 q)) = x4 (ix1 q) + x6 (ix1 q) ∧ b (ix2 0 (col 1 q)) = x12 (ix1 q) + x14 (ix1 q) ∧ b (ix2 0 (col 2 q)) = x8 (ix1 q) + x10 (ix1 q) ∧ b (ix2 0 (col 3 q)) = x16 (ix1 q) + x18 (ix1 q))
include hX hH hC hwx hwh hb

/-- The upper half's new cell state. -/
theorem cellT (p q : Fin 512) :
    k0_pay8 (F := Ideal) (View.ld wx rW) (View.ld wh rW) (View.ld b rB) (View.ld X rT) (View.ld H rT) (View.ld C rT) (ix2 p q)
      = cAt x0 x1 x2 x3 x4 x5 x6 x7 x8 x9 x10 x11 x12 x13 x14 (R (up p)) q := by
  rw [ldW_eq, ldW_eq, ldB_eq]
  refine (pay8_apply wx wh b (View.ld X rT) (View.ld H rT) (View.ld C rT) p q).trans ?_
  exact cell_of_blocks x0 x1 x2 x3 x4 x5 x6 x7 x8 x9 x10 x11 x12 x13 x14 (View.ld X rT) (View.ld H rT) (View.ld C rT) wx wh b (R (up p)) p q
    (fun d => (ldT_apply X p d).trans (hX _ d)) (fun d => (ldT_apply H p d).trans (hH _ d)) ((ldT_apply C p q).trans (hC _ q))
    (fun d => (hwx d q).1) (fun d => (hwx d q).2.1) (fun d => (hwx d q).2.2.1)
    (fun d => (hwh d q).1) (fun d => (hwh d q).2.1) (fun d => (hwh d q).2.2.1)
    (hb q).1 (hb q).2.1 (hb q).2.2.1

/-- The lower half's new cell state. -/
theorem cellU (p q : Fin 512) :
    k0_pay2 (F := Ideal) (k0_pay4 (View.ld wx rW)) (k0_pay5 (View.ld wh rW)) (k0_pay6 (View.ld b rB)) (k0_pay10 (View.ld X rU)) (k0_pay11 (View.ld H rU)) (View.ld C rU) (ix2 p q)
      = cAt x0 x1 x2 x3 x4 x5 x6 x7 x8 x9 x10 x11 x12 x13 x14 (R (lo p)) q := by
  rw [ldW_eq, ldW_eq, ldB_eq, pay4_eq, pay5_eq, pay6_eq, pay10_eq, pay11_eq]
  refine (pay2_apply wx wh b (View.ld X rU) (View.ld H rU) (View.ld C rU) p q).trans ?_
  exact cell_of_blocks x0 x1 x2 x3 x4 x5 x6 x7 x8 x9 x10 x11 x12 x13 x14 (View.ld X rU) (View.ld H rU) (View.ld C rU) wx wh b (R (lo p)) p q
    (fun d => (ldU_apply X p d).trans (hX _ d)) (fun d => (ldU_apply H p d).trans (hH _ d)) ((ldU_apply C p q).trans (hC _ q))
    (fun d => (hwx d q).1) (fun d => (hwx d q).2.1) (fun d => (hwx d q).2.2.1)
    (fun d => (hwh d q).1) (fun d => (hwh d q).2.1) (fun d => (hwh d q).2.2.1)
    (hb q).1 (hb q).2.1 (hb q).2.2.1

/-- The upper half's new hidden state. -/
theorem hidT (p q : Fin 512) :
    k0_pay9 (F := Ideal) (View.ld wx rW) (View.ld wh rW) (View.ld b rB) (View.ld X rT) (View.ld H rT) (View.ld C rT) (ix2 p q)
      = hAt x0 x1 x2 x3 x4 x5 x6 x7 x8 x9 x10 x11 x12 x13 x14 x15 x16 x17 x18 (R (up p)) q := by
  have hc := cellT x0 x1 x2 x3 x4 x5 x6 x7 x8 x9 x10 x11 x12 x13 x14 x15 x16 x17 x18 X H C wx wh b R hX hH hC hwx hwh hb p q
  rw [ldW_eq, ldW_eq, ldB_eq] at hc ⊢
  refine (pay9_apply wx wh b (View.ld X rT) (View.ld H rT) (View.ld C rT) p q).trans ?_
  exact hid_of_blocks x0 x1 x2 x3 x4 x5 x6 x7 x8 x9 x10 x11 x12 x13 x14 x15 x16 x17 x18 (View.ld X rT) (View.ld H rT) wx wh b _ (R (up p)) p q
    (fun d => (ldT_apply X p d).trans (hX _ d)) (fun d => (ldT_apply H p d).trans (hH _ d))
    (fun d => (hwx d q).2.2.2) (fun d => (hwh d q).2.2.2) (hb q).2.2.2 hc

/-- The lower half's new hidden state. -/
theorem hidU (p q : Fin 512) :
    k0_pay3 (F := Ideal) (k0_pay4 (View.ld wx rW)) (k0_pay5 (View.ld wh rW)) (k0_pay6 (View.ld b rB)) (k0_pay10 (View.ld X rU)) (k0_pay11 (View.ld H rU)) (View.ld C rU) (ix2 p q)
      = hAt x0 x1 x2 x3 x4 x5 x6 x7 x8 x9 x10 x11 x12 x13 x14 x15 x16 x17 x18 (R (lo p)) q := by
  have hc := cellU x0 x1 x2 x3 x4 x5 x6 x7 x8 x9 x10 x11 x12 x13 x14 x15 x16 x17 x18 X H C wx wh b R hX hH hC hwx hwh hb p q
  rw [ldW_eq, ldW_eq, ldB_eq, pay4_eq, pay5_eq, pay6_eq, pay10_eq, pay11_eq] at hc ⊢
  refine (pay3_apply wx wh b (View.ld X rU) (View.ld H rU) (View.ld C rU) p q).trans ?_
  exact hid_of_blocks x0 x1 x2 x3 x4 x5 x6 x7 x8 x9 x10 x11 x12 x13 x14 x15 x16 x17 x18 (View.ld X rU) (View.ld H rU) wx wh b _ (R (lo p)) p q
    (fun d => (ldU_apply X p d).trans (hX _ d)) (fun d => (ldU_apply H p d).trans (hH _ d))
    (fun d => (hwx d q).2.2.2) (fun d => (hwh d q).2.2.2) (hb q).2.2.2 hc

/-- The new-cell-state buffer after the body, at (u, q): the specification's value at (R u, q). -/
theorem out7_apply (u : Fin 1024) (q : Fin 512) :
    out0_7 (F := Ideal) X H C wx wh b (ix2 u q) = cAt x0 x1 x2 x3 x4 x5 x6 x7 x8 x9 x10 x11 x12 x13 x14 (R u) q := by
  unfold out0_7
  refine (View.canon_apply_of_pieces (fun y : S1024x512.Idx => cAt x0 x1 x2 x3 x4 x5 x6 x7 x8 x9 x10 x11 x12 x13 x14 (R (fst1024 y)) (snd512 y)) _ ?_ (ix2 u q) (cover_halves _ _ _)).trans rfl
  intro pc hpc x
  rcases List.mem_cons.mp hpc with rfl | hpc
  · obtain ⟨p, d, rfl⟩ : ∃ (p d : Fin 512), x = ix2 p d := ⟨x 0, x 1, eq_ix2 x⟩
    refine (cellU x0 x1 x2 x3 x4 x5 x6 x7 x8 x9 x10 x11 x12 x13 x14 x15 x16 x17 x18 X H C wx wh b R hX hH hC hwx hwh hb p d).trans ?_
    show _ = cAt x0 x1 x2 x3 x4 x5 x6 x7 x8 x9 x10 x11 x12 x13 x14 (R (fst1024 (rU.emb (ix2 p d)))) (snd512 (rU.emb (ix2 p d)))
    rw [fst_embU, snd_embU]
  · obtain rfl := List.mem_singleton.mp hpc
    obtain ⟨p, d, rfl⟩ : ∃ (p d : Fin 512), x = ix2 p d := ⟨x 0, x 1, eq_ix2 x⟩
    refine (cellT x0 x1 x2 x3 x4 x5 x6 x7 x8 x9 x10 x11 x12 x13 x14 x15 x16 x17 x18 X H C wx wh b R hX hH hC hwx hwh hb p d).trans ?_
    show _ = cAt x0 x1 x2 x3 x4 x5 x6 x7 x8 x9 x10 x11 x12 x13 x14 (R (fst1024 (rT.emb (ix2 p d)))) (snd512 (rT.emb (ix2 p d)))
    rw [fst_embT, snd_embT]

/-- The new-hidden-state buffer after the body, at (u, q): the specification's value at (R u, q). -/
theorem out6_apply (u : Fin 1024) (q : Fin 512) :
    out0_6 (F := Ideal) X H C wx wh b (ix2 u q) = hAt x0 x1 x2 x3 x4 x5 x6 x7 x8 x9 x10 x11 x12 x13 x14 x15 x16 x17 x18 (R u) q := by
  unfold out0_6
  refine (View.canon_apply_of_pieces (fun y : S1024x512.Idx => hAt x0 x1 x2 x3 x4 x5 x6 x7 x8 x9 x10 x11 x12 x13 x14 x15 x16 x17 x18 (R (fst1024 y)) (snd512 y)) _ ?_ (ix2 u q) (cover_halves _ _ _)).trans rfl
  intro pc hpc x
  rcases List.mem_cons.mp hpc with rfl | hpc
  · obtain ⟨p, d, rfl⟩ : ∃ (p d : Fin 512), x = ix2 p d := ⟨x 0, x 1, eq_ix2 x⟩
    refine (hidU x0 x1 x2 x3 x4 x5 x6 x7 x8 x9 x10 x11 x12 x13 x14 x15 x16 x17 x18 X H C wx wh b R hX hH hC hwx hwh hb p d).trans ?_
    show _ = hAt x0 x1 x2 x3 x4 x5 x6 x7 x8 x9 x10 x11 x12 x13 x14 x15 x16 x17 x18 (R (fst1024 (rU.emb (ix2 p d)))) (snd512 (rU.emb (ix2 p d)))
    rw [fst_embU, snd_embU]
  · obtain rfl := List.mem_singleton.mp hpc
    obtain ⟨p, d, rfl⟩ : ∃ (p d : Fin 512), x = ix2 p d := ⟨x 0, x 1, eq_ix2 x⟩
    refine (hidT x0 x1 x2 x3 x4 x5 x6 x7 x8 x9 x10 x11 x12 x13 x14 x15 x16 x17 x18 X H C wx wh b R hX hH hC hwx hwh hb p d).trans ?_
    show _ = hAt x0 x1 x2 x3 x4 x5 x6 x7 x8 x9 x10 x11 x12 x13 x14 x15 x16 x17 x18 (R (fst1024 (rT.emb (ix2 p d)))) (snd512 (rT.emb (ix2 p d)))
    rw [fst_embT, snd_embT]

end

end Cert.KernelIdeal.Pieces

end
-- ==== Proof.ValueKI.lean ====
/-
  What the program's two result arrays hold at the end, over the extended reals: the new hidden state and the new
  cell state of the specification, as whole arrays of the nineteen argument arrays.

  Grid point `t` is handed rows 1024·t … 1024·t + 1023 of x, h, c (block index (t, 0)) and the whole of the three
  prepared arrays (block index (0, 0)); its two half-tile stores leave, in each output buffer, the specification's
  values at rows 1024·t + p (upper half) and 1024·t + 512 + p (lower half); the buffer is written back to rows
  1024·t … of the result, and the eight blocks tile the 8192 rows.
-/
import proofs.«138366_j52338471469772_2_alg».proof.Proof.FrameKI
import proofs.«138366_j52338471469772_2_alg».proof.Proof.Payload
import proofs.«138366_j52338471469772_2_alg».proof.Proof.HostPrefix
import proofs.«138366_j52338471469772_2_alg».proof.Proof.Pieces
import Idealize.ShloMosaic.Lib.Pipeline.Value

set_option maxRecDepth 16384

noncomputable section

namespace Cert.KernelIdeal.HandValue

open Cert.KernelIdeal Cert.KernelIdeal.Gen Cert.KernelIdeal.Hand Cert.KernelIdeal.PayValue Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The new hidden state and the new cell state, of the argument arrays as given. -/
abbrev Hres (c : Dev nD) : S8192x512.Idx → EReal := hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
abbrev Cres (c : Dev nD) : S8192x512.Idx → EReal := cNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-! ## The block indices, decided over the grid -/

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 8 := by have h := t.isLt; have hN : cfg0.N = 8 := N_0; omega

/-- Row `u` of the tile at point `t` is row 1024·t + u of the batch. -/
def row (t : Fin cfg0.N) (u : Fin 1024) : Fin 8192 := ⟨1024 * t.val + u.val, by have := t_lt t; have := u.isLt; omega⟩

/-! ## The windows' blocks, read at an index -/
theorem iblk0_apply (c : Dev nD) (t : Fin cfg0.N) (u : Fin 1024) (d : Fin 512) :
    (iblk m c 0 t : S1024x512.Idx → EReal) (ix2 u d) = ((m ((c : Thread nD τ).loc main_arg0)) : S8192x512.Idx → EReal) (ix2 (row t u) d) := by
  obtain ⟨e0, e1, e2, e3, e4, e5, e6, e7⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * u.val = 1024 * t.val + u.val; rw [e0.1]; omega
  | ⟨1, _⟩ => show win0_0.index t (1 : Fin 2) * 512 + 1 * d.val = d.val; rw [e0.2]; omega

theorem iblk1_apply (c : Dev nD) (t : Fin cfg0.N) (u : Fin 1024) (d : Fin 512) :
    (iblk m c 1 t : S1024x512.Idx → EReal) (ix2 u d) = ((m ((c : Thread nD τ).loc main_arg1)) : S8192x512.Idx → EReal) (ix2 (row t u) d) := by
  obtain ⟨e0, e1, e2, e3, e4, e5, e6, e7⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * u.val = 1024 * t.val + u.val; rw [e1.1]; omega
  | ⟨1, _⟩ => show win0_1.index t (1 : Fin 2) * 512 + 1 * d.val = d.val; rw [e1.2]; omega

theorem iblk2_apply (c : Dev nD) (t : Fin cfg0.N) (u : Fin 1024) (d : Fin 512) :
    (iblk m c 2 t : S1024x512.Idx → EReal) (ix2 u d) = ((m ((c : Thread nD τ).loc main_arg2)) : S8192x512.Idx → EReal) (ix2 (row t u) d) := by
  obtain ⟨e0, e1, e2, e3, e4, e5, e6, e7⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 1024 + 1 * u.val = 1024 * t.val + u.val; rw [e2.1]; omega
  | ⟨1, _⟩ => show win0_2.index t (1 : Fin 2) * 512 + 1 * d.val = d.val; rw [e2.2]; omega

theorem iblk3_eq (c : Dev nD) (t : Fin cfg0.N) :
    (iblk m c 3 t : S512x2048.Idx → EReal) = (V m c main_v16 : S512x2048.Idx → EReal) := by
  obtain ⟨e0, e1, e2, e3, e4, e5, e6, e7⟩ := idx_facts t
  funext y
  unfold iblk
  rw [View.read_apply]
  show V m c main_v16 _ = V m c main_v16 y
  refine congrArg _ (funext fun a => Fin.ext ?_)
  match a with
  | ⟨0, _⟩ => show win0_3.index t (0 : Fin 2) * 512 + 1 * (y 0).val = (y 0).val; rw [e3.1]; omega
  | ⟨1, _⟩ => show win0_3.index t (1 : Fin 2) * 2048 + 1 * (y 1).val = (y 1).val; rw [e3.2]; omega

theorem iblk4_eq (c : Dev nD) (t : Fin cfg0.N) :
    (iblk m c 4 t : S512x2048.Idx → EReal) = (V m c main_v17 : S512x2048.Idx → EReal) := by
  obtain ⟨e0, e1, e2, e3, e4, e5, e6, e7⟩ := idx_facts t
  funext y
  unfold iblk
  rw [View.read_apply]
  show V m c main_v17 _ = V m c main_v17 y
  refine congrArg _ (funext fun a => Fin.ext ?_)
  match a with
  | ⟨0, _⟩ => show win0_4.index t (0 : Fin 2) * 512 + 1 * (y 0).val = (y 0).val; rw [e4.1]; omega
  | ⟨1, _⟩ => show win0_4.index t (1 : Fin 2) * 2048 + 1 * (y 1).val = (y 1).val; rw [e4.2]; omega

theorem iblk5_eq (c : Dev nD) (t : Fin cfg0.N) :
    (iblk m c 5 t : S1x2048.Idx → EReal) = (V m c main_v15 : S1x2048.Idx → EReal) := by
  obtain ⟨e0, e1, e2, e3, e4, e5, e6, e7⟩ := idx_facts t
  funext y
  unfold iblk
  rw [View.read_apply]
  show V m c main_v15 _ = V m c main_v15 y
  refine congrArg _ (funext fun a => Fin.ext ?_)
  match a with
  | ⟨0, _⟩ => show win0_5.index t (0 : Fin 2) * 1 + 1 * (y 0).val = (y 0).val; rw [e5.1]; omega
  | ⟨1, _⟩ => show win0_5.index t (1 : Fin 2) * 2048 + 1 * (y 1).val = (y 1).val; rw [e5.2]; omega

/-- What point `t` writes back into the new-cell-state result is its block of the specification's array. -/
theorem flushed7_eq (c : Dev nD) (t : Fin cfg0.N) :
    (dats m 0 c).flushed 7 t = ((cfg0.win 7).blk t).view.read (Elt Ideal) (Cres m c) := by
  obtain ⟨e0, e1, e2, e3, e4, e5, e6, e7⟩ := idx_facts t
  show (cfg0.win 7).cut (grid0.coords t) ((dats m 0 c).after 7 t) = _
  rw [after0_7]
  funext y
  obtain ⟨u, q, rfl⟩ : ∃ (u : Fin 1024) (q : Fin 512), y = ix2 u q := ⟨y 0, y 1, eq_ix2 y⟩
  rw [View.read_apply]
  show out0_7 (F := Ideal) (iblk m c 0 t) (iblk m c 1 t) (iblk m c 2 t) (iblk m c 3 t) (iblk m c 4 t) (iblk m c 5 t) (ix2 u q) = _
  refine (Cert.KernelIdeal.Pieces.out7_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (iblk m c 0 t) (iblk m c 1 t) (iblk m c 2 t) (iblk m c 3 t) (iblk m c 4 t) (iblk m c 5 t) (row t)
    (iblk0_apply m c t) (iblk1_apply m c t) (iblk2_apply m c t)
    (fun d q => by rw [iblk3_eq]; exact Cert.KernelIdeal.HostValue.wx_at (fun b => m (c, b)) d q)
    (fun d q => by rw [iblk4_eq]; exact Cert.KernelIdeal.HostValue.wh_at (fun b => m (c, b)) d q)
    (fun q => by rw [iblk5_eq]; exact Cert.KernelIdeal.HostValue.bias_at (fun b => m (c, b)) q) u q).trans ?_
  show cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (row t u) q = cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _ _
  refine congrArg₂ _ (Fin.ext ?_) (Fin.ext ?_)
  · show 1024 * t.val + u.val = win0_7.index t (0 : Fin 2) * 1024 + 1 * u.val; rw [e7.1]; omega
  · show q.val = win0_7.index t (1 : Fin 2) * 512 + 1 * q.val; rw [e7.2]; omega

/-- An index of the result is in point `t`'s block iff each coordinate is in the block's range on its axis. -/
theorem mem_blk7 (t : Fin cfg0.N) (i : S8192x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v18_1).slice (win0_7.rect t)).set ↔ _
  rw [View.set_slice_whole, Rect.mem_set_unit]
  exact Iff.rfl

/-- Row `r` of the result is in the block of point `r / 1024`: the eight blocks tile the rows. -/
theorem cover7 (i : S8192x512.Idx) : ∃ t : Fin cfg0.N, (cfg0.win 7).flush t = true ∧ i ∈ ((cfg0.win 7).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨e0, e1, e2, e3, e4, e5, e6, e7⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e7.1, ht]; omega
  | ⟨1, _⟩ => show win0_7.index t (1 : Fin 2) * 512 ≤ (i 1).val ∧ (i 1).val < win0_7.index t (1 : Fin 2) * 512 + 512; rw [e7.2]; omega

/-- The new-cell-state result after the run. -/
theorem final7 (c : Dev nD) : (dats m 0 c).arrAt 7 cfg0.N = Cres m c :=
  (dats m 0 c).arrAt_eq_of_cover 7 (Cres m c) (fun t _ => flushed7_eq m c t) cover7

/-- What point `t` writes back into the new-hidden-state result is its block of the specification's array. -/
theorem flushed6_eq (c : Dev nD) (t : Fin cfg0.N) :
    (dats m 0 c).flushed 6 t = ((cfg0.win 6).blk t).view.read (Elt Ideal) (Hres m c) := by
  obtain ⟨e0, e1, e2, e3, e4, e5, e6, e7⟩ := idx_facts t
  show (cfg0.win 6).cut (grid0.coords t) ((dats m 0 c).after 6 t) = _
  rw [after0_6]
  funext y
  obtain ⟨u, q, rfl⟩ : ∃ (u : Fin 1024) (q : Fin 512), y = ix2 u q := ⟨y 0, y 1, eq_ix2 y⟩
  rw [View.read_apply]
  show out0_6 (F := Ideal) (iblk m c 0 t) (iblk m c 1 t) (iblk m c 2 t) (iblk m c 3 t) (iblk m c 4 t) (iblk m c 5 t) (ix2 u q) = _
  refine (Cert.KernelIdeal.Pieces.out6_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (iblk m c 0 t) (iblk m c 1 t) (iblk m c 2 t) (iblk m c 3 t) (iblk m c 4 t) (iblk m c 5 t) (row t)
    (iblk0_apply m c t) (iblk1_apply m c t) (iblk2_apply m c t)
    (fun d q => by rw [iblk3_eq]; exact Cert.KernelIdeal.HostValue.wx_at (fun b => m (c, b)) d q)
    (fun d q => by rw [iblk4_eq]; exact Cert.KernelIdeal.HostValue.wh_at (fun b => m (c, b)) d q)
    (fun q => by rw [iblk5_eq]; exact Cert.KernelIdeal.HostValue.bias_at (fun b => m (c, b)) q) u q).trans ?_
  show hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (row t u) q = hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) _ _
  refine congrArg₂ _ (Fin.ext ?_) (Fin.ext ?_)
  · show 1024 * t.val + u.val = win0_6.index t (0 : Fin 2) * 1024 + 1 * u.val; rw [e6.1]; omega
  · show q.val = win0_6.index t (1 : Fin 2) * 512 + 1 * q.val; rw [e6.2]; omega

/-- An index of the result is in point `t`'s block iff each coordinate is in the block's range on its axis. -/
theorem mem_blk6 (t : Fin cfg0.N) (i : S8192x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v18_0).slice (win0_6.rect t)).set ↔ _
  rw [View.set_slice_whole, Rect.mem_set_unit]
  exact Iff.rfl

/-- Row `r` of the result is in the block of point `r / 1024`: the eight blocks tile the rows. -/
theorem cover6 (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨e0, e1, e2, e3, e4, e5, e6, e7⟩ := idx_facts t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e6.1, ht]; omega
  | ⟨1, _⟩ => show win0_6.index t (1 : Fin 2) * 512 ≤ (i 1).val ∧ (i 1).val < win0_6.index t (1 : Fin 2) * 512 + 512; rw [e6.2]; omega

/-- The new-hidden-state result after the run. -/
theorem final6 (c : Dev nD) : (dats m 0 c).arrAt 6 cfg0.N = Hres m c :=
  (dats m 0 c).arrAt_eq_of_cover 6 (Hres m c) (fun t _ => flushed6_eq m c t) cover6

/-! ## The run, read -/

/-- Every weakly fair execution of the program terminates, nothing faulting, with the first result at the
    specification's new hidden state, the second at its new cell state, and the arguments as given. -/
theorem run : θ_run defs (onTc (τ := τ) (main (F := Ideal))) ⟨m, fun _ => 0, ρ⟩ fun r => ∀ c : Dev nD,
      r.2.mem ((c.tc : Thread nD τ).loc main_v18_0) = Hres m c
      ∧ r.2.mem ((c.tc : Thread nD τ).loc main_v18_1) = Cres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.HandValue

end
-- ==== Proof.RefSide.lean ====
/-
  The reference program's two results are the specification's arrays.

  The reference stacks the four gates' weight matrices and bias vectors along a new axis (in the order forget,
  candidate, input, output), forms all four pre-activations at once as
      ((x·Wx + bx) + h·Wh) + bh
  of shape [8192, 4, 512], and slices the stacked axis apart again. Read at one index, slice g of that array is
  gate g's pre-activation with its four summands grouped as the specification groups them after one use of
  commutativity and associativity of addition on the extended reals. The logistic function is spelt
  1 / (1 + exp (-p)), which is its definition on the extended reals once the pattern of the constant 1.0 is read.
-/
import proofs.«138366_j52338471469772_2_alg».proof.Proof.Gen.ReferenceIdeal.Read
import proofs.«138366_j52338471469772_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The pattern of `1.0` denotes the extended real `1`. -/
theorem ofBits_one : Ideal.ofBits .f32 0x3F800000#32 = 1 := by
  simp [Ideal.ofBits, Ideal.ieee, -EReal.coe_mul]; norm_num

/-- Four [1, 512, 512] pieces joined along axis 0, read at (g, j, d): piece g at (0, j, d). -/
theorem cat3_apply {α : Type} (y0 y1 y2 y3 : S1x512x512.Idx → α)
    (h : Shape.Concatenates ([(⟨S1x512x512, y0⟩ : (s : Shape) × (s.Idx → α)), ⟨S1x512x512, y1⟩, ⟨S1x512x512, y2⟩,
      ⟨S1x512x512, y3⟩].map (·.1)) S4x512x512 0)
    (g : Fin 4) (j d : Fin 512) :
    concatenate S4x512x512 0 [⟨S1x512x512, y0⟩, ⟨S1x512x512, y1⟩, ⟨S1x512x512, y2⟩, ⟨S1x512x512, y3⟩] h (ix3 g j d)
      = (![y0, y1, y2, y3] g) (ix3 0 j d) := by
  refine concatenate_apply_piece (0 : Fin S4x512x512.rank) _ h (ix3 g j d) g.val g.isLt S1x512x512 (![y0, y1, y2, y3] g)
    ?_ rfl g.val ?_ (ix3 0 j d) ?_ ?_
  · fin_cases g <;> rfl
  · fin_cases g <;> rfl
  · intro b hb
    match b with
    | ⟨0, _⟩ => exact absurd rfl hb
    | ⟨1, _⟩ => rfl
    | ⟨2, _⟩ => rfl
  · rfl

/-- Four [1, 512] pieces joined along axis 0, read at (g, j): piece g at (0, j). -/
theorem cat2_apply {α : Type} (y0 y1 y2 y3 : S1x512.Idx → α)
    (h : Shape.Concatenates ([(⟨S1x512, y0⟩ : (s : Shape) × (s.Idx → α)), ⟨S1x512, y1⟩, ⟨S1x512, y2⟩,
      ⟨S1x512, y3⟩].map (·.1)) S4x512 0)
    (g : Fin 4) (j : Fin 512) :
    concatenate S4x512 0 [⟨S1x512, y0⟩, ⟨S1x512, y1⟩, ⟨S1x512, y2⟩, ⟨S1x512, y3⟩] h (ix2 g j)
      = (![y0, y1, y2, y3] g) (ix2 0 j) := by
  refine concatenate_apply_piece (0 : Fin S4x512.rank) _ h (ix2 g j) g.val g.isLt S1x512 (![y0, y1, y2, y3] g)
    ?_ rfl g.val ?_ (ix2 0 j) ?_ ?_
  · fin_cases g <;> rfl
  · fin_cases g <;> rfl
  · intro b hb
    match b with
    | ⟨0, _⟩ => exact absurd rfl hb
    | ⟨1, _⟩ => rfl
  · rfl

/-- A [512, 512] matrix viewed as one [1, 512, 512] piece, read at (0, j, d): the matrix at (j, d). -/
theorem pieceW_apply (x : (⟨S512x512, .f32⟩ : BufTy).Contents (Elt Ideal)) (j d : Fin 512) :
    broadcastInDim S1x512x512 ![1, 2] bcast_S512x512_S1x512x512_1_2 x (ix3 0 j d) = x (ix2 j d) := by
  refine (val_main_v0_apply (F := Ideal) x (ix3 0 j d)).trans (congrArg x ?_)
  funext a
  match a with
  | ⟨0, _⟩ => rfl
  | ⟨1, _⟩ => rfl

/-- A length-512 vector viewed as one [1, 512] piece, read at (0, j): the vector at j. -/
theorem pieceV_apply (x : (⟨S512, .f32⟩ : BufTy).Contents (Elt Ideal)) (j : Fin 512) :
    broadcastInDim S1x512 ![1] bcast_S512_S1x512_1 x (ix2 0 j) = x (ix1 j) := by
  refine (val_main_v5_apply (F := Ideal) x (ix2 0 j)).trans (congrArg x ?_)
  funext a
  match a with
  | ⟨0, _⟩ => rfl

/-- The stacked input-weight array at (g, j, d): gate g's matrix at (j, d). -/
theorem v4_apply (x3 x7 x11 x15 : (⟨S512x512, .f32⟩ : BufTy).Contents (Elt Ideal)) (g : Fin 4) (j d : Fin 512) :
    val_main_v4 (F := Ideal) x3 x7 x11 x15 (ix3 g j d) = (![x3, x11, x7, x15] g) (ix2 j d) := by
  unfold val_main_v4 val_main_v0 val_main_v1 val_main_v2 val_main_v3
  refine (cat3_apply _ _ _ _ _ g j d).trans ?_
  fin_cases g
  · exact pieceW_apply x3 j d
  · exact pieceW_apply x11 j d
  · exact pieceW_apply x7 j d
  · exact pieceW_apply x15 j d

/-- The stacked recurrent-weight array at (g, j, d): gate g's matrix at (j, d). -/
theorem v14_apply (x5 x9 x13 x17 : (⟨S512x512, .f32⟩ : BufTy).Contents (Elt Ideal)) (g : Fin 4) (j d : Fin 512) :
    val_main_v14 (F := Ideal) x5 x9 x13 x17 (ix3 g j d) = (![x5, x13, x9, x17] g) (ix2 j d) := by
  unfold val_main_v14 val_main_v10 val_main_v11 val_main_v12 val_main_v13
  refine (cat3_apply _ _ _ _ _ g j d).trans ?_
  fin_cases g
  · exact pieceW_apply x5 j d
  · exact pieceW_apply x13 j d
  · exact pieceW_apply x9 j d
  · exact pieceW_apply x17 j d

/-- The stacked input-bias array at (g, j): gate g's vector at j. -/
theorem v9_apply (x4 x8 x12 x16 : (⟨S512, .f32⟩ : BufTy).Contents (Elt Ideal)) (g : Fin 4) (j : Fin 512) :
    val_main_v9 (F := Ideal) x4 x8 x12 x16 (ix2 g j) = (![x4, x12, x8, x16] g) (ix1 j) := by
  unfold val_main_v9 val_main_v5 val_main_v6 val_main_v7 val_main_v8
  refine (cat2_apply _ _ _ _ _ g j).trans ?_
  fin_cases g
  · exact pieceV_apply x4 j
  · exact pieceV_apply x12 j
  · exact pieceV_apply x8 j
  · exact pieceV_apply x16 j

/-- The stacked recurrent-bias array at (g, j): gate g's vector at j. -/
theorem v19_apply (x6 x10 x14 x18 : (⟨S512, .f32⟩ : BufTy).Contents (Elt Ideal)) (g : Fin 4) (j : Fin 512) :
    val_main_v19 (F := Ideal) x6 x10 x14 x18 (ix2 g j) = (![x6, x14, x10, x18] g) (ix1 j) := by
  unfold val_main_v19 val_main_v15 val_main_v16 val_main_v17 val_main_v18
  refine (cat2_apply _ _ _ _ _ g j).trans ?_
  fin_cases g
  · exact pieceV_apply x6 j
  · exact pieceV_apply x14 j
  · exact pieceV_apply x10 j
  · exact pieceV_apply x18 j

/-! ### The index maps of the two contractions and of the bias broadcasts, at (r, g, j) -/

theorem lidx20 (r : Fin 8192) (g : Fin 4) (j k : Fin 512) : lidx_main_v20 (ix3 r g j) k = ix2 r k :=
  funext fun a => match a with
    | ⟨0, _⟩ => rfl
    | ⟨1, _⟩ => rfl

theorem ridx20 (r : Fin 8192) (g : Fin 4) (j k : Fin 512) : ridx_main_v20 (ix3 r g j) k = ix3 g j k :=
  funext fun a => match a with
    | ⟨0, _⟩ => rfl
    | ⟨1, _⟩ => rfl
    | ⟨2, _⟩ => rfl

theorem lidx24 (r : Fin 8192) (g : Fin 4) (j k : Fin 512) : lidx_main_v24 (ix3 r g j) k = ix2 r k :=
  funext fun a => match a with
    | ⟨0, _⟩ => rfl
    | ⟨1, _⟩ => rfl

theorem ridx24 (r : Fin 8192) (g : Fin 4) (j k : Fin 512) : ridx_main_v24 (ix3 r g j) k = ix3 g j k :=
  funext fun a => match a with
    | ⟨0, _⟩ => rfl
    | ⟨1, _⟩ => rfl
    | ⟨2, _⟩ => rfl

theorem idx21_22 (r : Fin 8192) (g : Fin 4) (j : Fin 512) : idx_main_v21 (idx_main_v22 (ix3 r g j)) = ix2 g j :=
  funext fun a => match a with
    | ⟨0, _⟩ => rfl
    | ⟨1, _⟩ => rfl

theorem idx26_27 (r : Fin 8192) (g : Fin 4) (j : Fin 512) : idx_main_v26 (idx_main_v27 (ix3 r g j)) = ix2 g j :=
  funext fun a => match a with
    | ⟨0, _⟩ => rfl
    | ⟨1, _⟩ => rfl

/-- The stacked pre-activation array at (r, g, j) is gate g's pre-activation of row r at unit j, where gate g's
    arrays are the g-th entries of the four stacks (forget, candidate, input, output). -/
theorem v28_apply (x0 x1 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal))
    (r : Fin 8192) (g : Fin 4) (j : Fin 512) :
    val_main_v28 (F := Ideal) x0 x1 x3 x4 x5 x6 x7 x8 x9 x10 x11 x12 x13 x14 x15 x16 x17 x18 (ix3 r g j)
      = Cert.Spec.pre x0 x1 (![x3, x11, x7, x15] g) (![x5, x13, x9, x17] g) (![x4, x12, x8, x16] g)
          (![x6, x14, x10, x18] g) r j := by
  have hA : val_main_v20 (F := Ideal) x0 x3 x7 x11 x15 (ix3 r g j)
      = ∑ d : Fin 512, x0 (ix2 r d) * (![x3, x11, x7, x15] g) (ix2 j d) := by
    rw [val_main_v20_apply]
    refine Finset.sum_congr rfl fun k _ => ?_
    rw [lidx20 r g j k, ridx20 r g j k, v4_apply]
  have hB : val_main_v24 (F := Ideal) x1 x5 x9 x13 x17 (ix3 r g j)
      = ∑ d : Fin 512, x1 (ix2 r d) * (![x5, x13, x9, x17] g) (ix2 j d) := by
    rw [val_main_v24_apply]
    refine Finset.sum_congr rfl fun k _ => ?_
    rw [lidx24 r g j k, ridx24 r g j k, v14_apply]
  have hp : val_main_v22 (F := Ideal) x4 x8 x12 x16 (ix3 r g j) = (![x4, x12, x8, x16] g) (ix1 j) := by
    rw [val_main_v22_apply, val_main_v21_apply, idx21_22 r g j, v9_apply]
  have hq : val_main_v27 (F := Ideal) x6 x10 x14 x18 (ix3 r g j) = (![x6, x14, x10, x18] g) (ix1 j) := by
    rw [val_main_v27_apply, val_main_v26_apply, idx26_27 r g j, v19_apply]
  rw [val_main_v28_apply, val_main_v25_apply, val_main_v23_apply, hA, hB, hp, hq]
  exact Cert.Spec.add_regroup _ _ _ _

/-! ### The four slices of the stacked axis, read through the reshape that drops the axis of extent one -/

theorem idx29_30 (r : Fin 8192) (j : Fin 512) : idx_main_v29 (idx_main_v30 (ix2 r j)) = ix3 r 0 j :=
  funext fun a => match a with
    | ⟨0, _⟩ => Fin.ext (by have := j.isLt; show (r.val * 512 + j.val) / 512 = r.val; omega)
    | ⟨1, _⟩ => rfl
    | ⟨2, _⟩ => Fin.ext (by have := j.isLt; show (r.val * 512 + j.val) % 512 = j.val; omega)

theorem idx37_38 (r : Fin 8192) (j : Fin 512) : idx_main_v37 (idx_main_v38 (ix2 r j)) = ix3 r 1 j :=
  funext fun a => match a with
    | ⟨0, _⟩ => Fin.ext (by have := j.isLt; show (r.val * 512 + j.val) / 512 = r.val; omega)
    | ⟨1, _⟩ => rfl
    | ⟨2, _⟩ => Fin.ext (by have := j.isLt; show (r.val * 512 + j.val) % 512 = j.val; omega)

theorem idx40_41 (r : Fin 8192) (j : Fin 512) : idx_main_v40 (idx_main_v41 (ix2 r j)) = ix3 r 2 j :=
  funext fun a => match a with
    | ⟨0, _⟩ => Fin.ext (by have := j.isLt; show (r.val * 512 + j.val) / 512 = r.val; omega)
    | ⟨1, _⟩ => rfl
    | ⟨2, _⟩ => Fin.ext (by have := j.isLt; show (r.val * 512 + j.val) % 512 = j.val; omega)

theorem idx48_49 (r : Fin 8192) (j : Fin 512) : idx_main_v48 (idx_main_v49 (ix2 r j)) = ix3 r 3 j :=
  funext fun a => match a with
    | ⟨0, _⟩ => Fin.ext (by have := j.isLt; show (r.val * 512 + j.val) / 512 = r.val; omega)
    | ⟨1, _⟩ => rfl
    | ⟨2, _⟩ => Fin.ext (by have := j.isLt; show (r.val * 512 + j.val) % 512 = j.val; omega)

/-- The reference spells the logistic function as 1 / (1 + exp (-p)) with the constant 1.0: on the extended reals that
    expression is the logistic function's definition. -/
theorem logistic_spelt (p : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf p)))
      = Ideal.logistic p := by
  rw [Ideal.ofBits_def, ofBits_one]
  rfl

/-- The forget gate: the logistic function of slice 0. -/
theorem v36_apply (x0 x1 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal))
    (r : Fin 8192) (j : Fin 512) :
    val_main_v36 (F := Ideal) x0 x1 x3 x4 x5 x6 x7 x8 x9 x10 x11 x12 x13 x14 x15 x16 x17 x18 (ix2 r j)
      = Ideal.logistic (Cert.Spec.pre x0 x1 x3 x5 x4 x6 r j) := by
  rw [val_main_v36_apply, val_main_v35_apply, val_main_cst_0_apply, val_main_v34_apply, val_main_v33_apply,
    val_main_cst_apply, val_main_v32_apply, val_main_v31_apply, val_main_v30_apply, val_main_v29_apply,
    idx29_30 r j, v28_apply]
  exact logistic_spelt _

/-- The candidate: the hyperbolic tangent of slice 1. -/
theorem v39_apply (x0 x1 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal))
    (r : Fin 8192) (j : Fin 512) :
    val_main_v39 (F := Ideal) x0 x1 x3 x4 x5 x6 x7 x8 x9 x10 x11 x12 x13 x14 x15 x16 x17 x18 (ix2 r j)
      = Ideal.tanh (Cert.Spec.pre x0 x1 x11 x13 x12 x14 r j) := by
  rw [val_main_v39_apply, val_main_v38_apply, val_main_v37_apply, idx37_38 r j, v28_apply]
  rfl

/-- The input gate: the logistic function of slice 2. -/
theorem v47_apply (x0 x1 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal))
    (r : Fin 8192) (j : Fin 512) :
    val_main_v47 (F := Ideal) x0 x1 x3 x4 x5 x6 x7 x8 x9 x10 x11 x12 x13 x14 x15 x16 x17 x18 (ix2 r j)
      = Ideal.logistic (Cert.Spec.pre x0 x1 x7 x9 x8 x10 r j) := by
  rw [val_main_v47_apply, val_main_v46_apply, val_main_cst_2_apply, val_main_v45_apply, val_main_v44_apply,
    val_main_cst_1_apply, val_main_v43_apply, val_main_v42_apply, val_main_v41_apply, val_main_v40_apply,
    idx40_41 r j, v28_apply]
  exact logistic_spelt _

/-- The output gate: the logistic function of slice 3. -/
theorem v55_apply (x0 x1 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal))
    (r : Fin 8192) (j : Fin 512) :
    val_main_v55 (F := Ideal) x0 x1 x3 x4 x5 x6 x7 x8 x9 x10 x11 x12 x13 x14 x15 x16 x17 x18 (ix2 r j)
      = Ideal.logistic (Cert.Spec.pre x0 x1 x15 x17 x16 x18 r j) := by
  rw [val_main_v55_apply, val_main_v54_apply, val_main_cst_4_apply, val_main_v53_apply, val_main_v52_apply,
    val_main_cst_3_apply, val_main_v51_apply, val_main_v50_apply, val_main_v49_apply, val_main_v48_apply,
    idx48_49 r j, v28_apply]
  exact logistic_spelt _

/-- The reference's new cell state is the specification's. -/
theorem ref_c (x0 x1 x2 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal)) :
    val_main_v58 (F := Ideal) x0 x1 x2 x3 x4 x5 x6 x7 x8 x9 x10 x11 x12 x13 x14 x15 x16 x17 x18
      = Cert.Spec.cNew x0 x1 x2 x3 x4 x5 x6 x7 x8 x9 x10 x11 x12 x13 x14 := by
  funext i
  obtain ⟨r, j, rfl⟩ : ∃ (r : Fin 8192) (j : Fin 512), i = ix2 r j := ⟨i 0, i 1, eq_ix2 i⟩
  rw [val_main_v58_apply, val_main_v56_apply, val_main_v57_apply, v36_apply, v47_apply, v39_apply, Cert.Spec.cNew_ix2]
  rfl

/-- The reference's new hidden state is the specification's. -/
theorem ref_h (x0 x1 x2 : (⟨S8192x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal)) :
    val_main_v60 (F := Ideal) x0 x1 x2 x3 x4 x5 x6 x7 x8 x9 x10 x11 x12 x13 x14 x15 x16 x17 x18
      = Cert.Spec.hNew x0 x1 x2 x3 x4 x5 x6 x7 x8 x9 x10 x11 x12 x13 x14 x15 x16 x17 x18 := by
  funext i
  obtain ⟨r, j, rfl⟩ : ∃ (r : Fin 8192) (j : Fin 512), i = ix2 r j := ⟨i 0, i 1, eq_ix2 i⟩
  rw [val_main_v60_apply, val_main_v59_apply, ref_c, v55_apply, Cert.Spec.cNew_ix2, Cert.Spec.hNew_ix2]
  rfl

end Cert.ReferenceIdeal.RefValue

end
-- ==== Proof.lean ====
/-
  An LSTM cell step, as a fused kernel and as plain array code, compute the same two arrays over the extended reals.

  Both programs take a batch x, h, c of 8192 rows and, for each of the four gates (forget, input, candidate, output),
  two [512, 512] weight matrices and two bias vectors. A gate's pre-activation at batch row r and hidden unit j is
  x(r,·)·Wx(j,·) + h(r,·)·Wh(j,·) + bx(j) + bh(j); the new cell state is σ(forget)·c + σ(input)·tanh(candidate) and
  the new hidden state σ(output)·tanh(new cell) (module Spec).

  The kernel program joins the transposed weight matrices of the four gates into two [512, 2048] matrices and the
  summed biases into one row on the host, then handles the batch in eight tiles of 1024 rows, each tile in two
  halves: two matrix products accumulated from zero, the bias row added, the four column blocks cut out, the gates
  applied. The reference stacks the weights as [4, 512, 512], contracts once per side, adds the two stacked biases
  one after the other, and spells the logistic function as 1 / (1 + exp(−x)), which is what the logistic function
  is on the extended reals. The only law used between the two is that a sum of four extended reals does not depend
  on its grouping, which holds without any finiteness; the inputs' finiteness is never opened.

  The three frames: each kernel program runs to its end and leaves its arguments as given (modules FrameK, FrameKI:
  one argument, stated once for every float instance); the reference's frame is its run with the results dropped.
  No operation of the kernel was rewritten for the ideal reading, so nothing is owed for that step.
-/
import proofs.«138366_j52338471469772_2_alg».proof.Defs
import proofs.«138366_j52338471469772_2_alg».proof.Proof.Gen.Kernel
import proofs.«138366_j52338471469772_2_alg».proof.Proof.Gen.KernelIdeal
import proofs.«138366_j52338471469772_2_alg».proof.Proof.Gen.ReferenceIdeal
import proofs.«138366_j52338471469772_2_alg».proof.Proof.Gen.Pre_finite_inputs
import proofs.«138366_j52338471469772_2_alg».proof.Proof.Gen.ReferenceIdeal.Run
import proofs.«138366_j52338471469772_2_alg».proof.Proof.Gen.ReferenceIdeal.Read
import proofs.«138366_j52338471469772_2_alg».proof.Proof.FrameK
import proofs.«138366_j52338471469772_2_alg».proof.Proof.ValueKI
import proofs.«138366_j52338471469772_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the nineteen arguments both programs end with their first result at the
    specification's new hidden state and their second at its new cell state. -/
theorem algebraic : Cert.algebraic_KernelIdeal_ReferenceIdeal := by
  intro m ρ m' ρ' _ hagree
  refine ⟨fun c => Cert.KernelIdeal.HandValue.Hres m c, fun c => Cert.KernelIdeal.HandValue.Cres m c,
    Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18⟩ := hagree c
    rw [Cert.ReferenceIdeal.Read.val_main_v60_eq, Cert.ReferenceIdeal.RefValue.ref_h, e0, e1, e2, e3, e4, e5, e6, e7, e8, e9, e10, e11, e12, e13, e14, e15, e16, e17, e18]
  · obtain ⟨e0, e1, e2, e3, e4, e5, e6, e7, e8, e9, e10, e11, e12, e13, e14, e15, e16, e17, e18⟩ := hagree c
    rw [Cert.ReferenceIdeal.Read.val_main_v58_eq, Cert.ReferenceIdeal.RefValue.ref_c, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
